-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S64x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x84x84 : Shape := ⟨4, ![2048, 4, 84, 84]⟩
abbrev S2048x1 : Shape := ⟨2, ![2048, 1]⟩
abbrev S256x28224 : Shape := ⟨2, ![256, 28224]⟩
abbrev S_ : Shape := ⟨0, ![]⟩

class Facts : Prop where
  bcast_S_S2048x4x84x84 : S_.BroadcastsInDim S2048x4x84x84 (![] : Fin 0 → Fin S2048x4x84x84.rank)
  reducesTo_S2048x4x84x84_S_d0_1_2_3 : S2048x4x84x84.ReducesTo [0, 1, 2, 3] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S256x28224 : S_.BroadcastsInDim S256x28224 (![] : Fin 0 → Fin S256x28224.rank)
  reducesTo_S256x28224_S_d0_1 : S256x28224.ReducesTo [0, 1] S_

variable [Facts]

def fn {F : FTy → Type} [FloatOps F] (main_arg0 : FVec F S2048x4x84x84 .f32) (main_arg1 : FVec F S2048x1 .f32) (main_arg2 : FVec F S256x28224 .f32) : IVec S_ 1 :=
  let main_v0 : FVec F S2048x4x84x84 .f32 := Host.absf main_arg0
  let main_cst : FVec F S_ .f32 := constant S_ .f32 0x7F800000#32
  let main_v1 : FVec F S2048x4x84x84 .f32 := broadcastInDim S2048x4x84x84 ![] bcast_S_S2048x4x84x84 main_cst
  let main_v2 : IVec S2048x4x84x84 1 := cmpf .olt main_v0 main_v1
  let main_c : IVec S_ 1 := constantI S_ 1 1#1
  let main_v3 : IVec S_ 1 := (fun x v => Host.reduce IntOp.andi x v reducesTo_S2048x4x84x84_S_d0_1_2_3 h_S_) main_v2 main_c
  let main_v4 : FVec F S2048x1 .f32 := Host.absf main_arg1
  let main_cst_0 : FVec F S_ .f32 := constant S_ .f32 0x7F800000#32
  let main_v5 : FVec F S2048x1 .f32 := broadcastInDim S2048x1 ![] bcast_S_S2048x1 main_cst_0
  let main_v6 : IVec S2048x1 1 := cmpf .olt main_v4 main_v5
  let main_c_1 : IVec S_ 1 := constantI S_ 1 1#1
  let main_v7 : IVec S_ 1 := (fun x v => Host.reduce IntOp.andi x v reducesTo_S2048x1_S_d0_1 h_S_) main_v6 main_c_1
  let main_v8 : IVec S_ 1 := andi main_v3 main_v7
  let main_v9 : FVec F S256x28224 .f32 := Host.absf main_arg2
  let main_cst_2 : FVec F S_ .f32 := constant S_ .f32 0x7F800000#32
  let main_v10 : FVec F S256x28224 .f32 := broadcastInDim S256x28224 ![] bcast_S_S256x28224 main_cst_2
  let main_v11 : IVec S256x28224 1 := cmpf .olt main_v9 main_v10
  let main_c_3 : IVec S_ 1 := constantI S_ 1 1#1
  let main_v12 : IVec S_ 1 := (fun x v => Host.reduce IntOp.andi x v reducesTo_S256x28224_S_d0_1 h_S_) main_v11 main_c_3
  let main_v13 : IVec S_ 1 := andi main_v8 main_v12
  main_v13
-- ==== Kernel.lean ====
abbrev S2048x4x84x84 : Shape := ⟨4, ![2048, 4, 84, 84]⟩
abbrev S2048x1 : Shape := ⟨2, ![2048, 1]⟩
abbrev S256x28224 : Shape := ⟨2, ![256, 28224]⟩
abbrev S2048x28224 : Shape := ⟨2, ![2048, 28224]⟩
abbrev S2048x256 : Shape := ⟨2, ![2048, 256]⟩
abbrev S64x28224 : Shape := ⟨2, ![64, 28224]⟩
abbrev S64x256 : Shape := ⟨2, ![64, 256]⟩
abbrev S256x256 : Shape := ⟨2, ![256, 256]⟩
abbrev S256x1 : Shape := ⟨2, ![256, 1]⟩
abbrev S256x2048 : Shape := ⟨2, ![256, 2048]⟩
abbrev S256 : Shape := ⟨1, ![256]⟩

abbrev nBuf : Space → Nat
  | .hbm => 7
  | .vmem => 12
  | .smem => 0
  | _ => 0

abbrev bufTy : (tb : Table) → Fin (tcTables nBuf tb) → BufTy
  | .hbm, ⟨0, _⟩ => ⟨S2048x4x84x84, .f32⟩
  | .hbm, ⟨1, _⟩ => ⟨S2048x1, .f32⟩
  | .hbm, ⟨2, _⟩ => ⟨S256x28224, .f32⟩
  | .hbm, ⟨3, _⟩ => ⟨S2048x28224, .f32⟩
  | .hbm, ⟨4, _⟩ => ⟨S256x28224, .bf16⟩
  | .hbm, ⟨5, _⟩ => ⟨S2048x256, .bf16⟩
  | .hbm, ⟨6, _⟩ => ⟨S2048x1, .f32⟩
  | .local _ .vmem, ⟨0, _⟩ => ⟨S64x28224, .f32⟩
  | .local _ .vmem, ⟨1, _⟩ => ⟨S64x28224, .f32⟩
  | .local _ .vmem, ⟨2, _⟩ => ⟨S256x28224, .bf16⟩
  | .local _ .vmem, ⟨3, _⟩ => ⟨S64x256, .bf16⟩
  | .local _ .vmem, ⟨4, _⟩ => ⟨S64x256, .bf16⟩
  | .local _ .vmem, ⟨5, _⟩ => ⟨S256x256, .bf16⟩
  | .local _ .vmem, ⟨6, _⟩ => ⟨S256x256, .bf16⟩
  | .local _ .vmem, ⟨7, _⟩ => ⟨S2048x256, .bf16⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | _, _ => ⟨S2048x4x84x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x28224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x28224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S2048x4x84x84_S2048x28224 : S2048x4x84x84.ShapeCasts S2048x28224
  bitsLt_bf16_f32 : FTy.bits .bf16 < FTy.bits .f32
  inb_S64x28224_S64x28224_0_0 : ∀ a, (![0, 0] : Fin 2 → Nat) a + S64x28224.size a ≤ S64x28224.size a
  h_S64x28224 : 0 < S64x28224.numel
  shapeCasts_S64x28224_S64x28224 : S64x28224.ShapeCasts S64x28224
  inb_S256x28224_S256x28224_0_0 : ∀ a, (![0, 0] : Fin 2 → Nat) a + S256x28224.size a ≤ S256x28224.size a
  h_S256x28224 : 0 < S256x28224.numel
  shapeCasts_S256x28224_S256x28224 : S256x28224.ShapeCasts S256x28224
  inb_S64x256_S64x256_0_0 : ∀ a, (![0, 0] : Fin 2 → Nat) a + S64x256.size a ≤ S64x256.size a
  h_S64x256 : 0 < S64x256.numel
  packedbf16_S64x256_S64x256_0_0 : (Rect.unit (s := S64x256) ![0, 0] S64x256.size inb_S64x256_S64x256_0_0).PackedRows (EltTy.packing .bf16)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  natLt_1_32 : 1 < 32
  reduces_S256x2048_S256 : S256x2048.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  dot_S64x28224_S256x28224_S64x256_1_1_0_0_n_n_wf : DotDims.WF S64x28224 S256x28224 S64x256 [1] [1] [0] [0] [] []
  dot_S256x256_S2048x256_S256x2048_1_1_0_0_n_n_wf : DotDims.WF S256x256 S2048x256 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x28224.size a ≤ S2048x28224.size a
  hwx0_0 : ∀ i : grid0.Coords, EltTy.bits .f32 = 32 ∨ (Rect.block (s := S2048x28224) S64x28224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x28224.size a ≤ S256x28224.size a
  hwx0_1 : ∀ i : grid0.Coords, EltTy.bits .bf16 = 32 ∨ (Rect.block (s := S256x28224) S256x28224.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S2048x256.size a
  hwx0_2 : ∀ i : grid0.Coords, EltTy.bits .bf16 = 32 ∨ (Rect.block (s := S2048x256) S64x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S2048x256.size a
  hwx1_0 : ∀ i : grid1.Coords, EltTy.bits .bf16 = 32 ∨ (Rect.block (s := S2048x256) S256x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x256.size a
  hwx1_1 : ∀ i : grid1.Coords, EltTy.bits .bf16 = 32 ∨ (Rect.block (s := S2048x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S2048x1.size a
  hwx1_2 : ∀ i : grid1.Coords, EltTy.bits .f32 = 32 ∨ (Rect.block (s := S2048x1) S256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S2048x1.size a
  hwx1_3 : ∀ i : grid1.Coords, EltTy.bits .f32 = 32 ∨ (Rect.block (s := S2048x1) S256x1.size (cc1_transform_3 i) (hinb1_3 i)).WholeWords (EltTy.packing .f32)

variable [Facts₀]

def dot_S64x28224_S256x28224_S64x256_1_1_0_0_n_n : DotDims S64x28224 S256x28224 S64x256 where
  lhsContracting := [1]
  rhsContracting := [1]
  lhsNonContracting := [0]
  rhsNonContracting := [0]
  lhsBatch := []
  rhsBatch := []
  wf := dot_S64x28224_S256x28224_S64x256_1_1_0_0_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf

abbrev win0_0 : Pipeline.Window sig grid0 :=
  Pipeline.Window.ofSpec (Memref.whole main_v0) S64x28224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x28224.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x4x84x84 : Shape := ⟨4, ![2048, 4, 84, 84]⟩
abbrev S2048x1 : Shape := ⟨2, ![2048, 1]⟩
abbrev S256x28224 : Shape := ⟨2, ![256, 28224]⟩
abbrev S2048x28224 : Shape := ⟨2, ![2048, 28224]⟩
abbrev S28224x256 : Shape := ⟨2, ![28224, 256]⟩
abbrev S2048x256 : Shape := ⟨2, ![2048, 256]⟩
abbrev S256x2048 : Shape := ⟨2, ![256, 2048]⟩
abbrev S2048x2048 : Shape := ⟨2, ![2048, 2048]⟩
abbrev S_ : Shape := ⟨0, ![]⟩
abbrev S2048 : Shape := ⟨1, ![2048]⟩

abbrev nBuf : Space → Nat
  | .hbm => 22
  | .vmem => 0
  | .smem => 0
  | _ => 0

abbrev bufTy : (tb : Table) → Fin (tcTables nBuf tb) → BufTy
  | .hbm, ⟨0, _⟩ => ⟨S2048x4x84x84, .f32⟩
  | .hbm, ⟨1, _⟩ => ⟨S2048x1, .f32⟩
  | .hbm, ⟨2, _⟩ => ⟨S256x28224, .f32⟩
  | .hbm, ⟨3, _⟩ => ⟨S2048x28224, .f32⟩
  | .hbm, ⟨4, _⟩ => ⟨S28224x256, .f32⟩
  | .hbm, ⟨5, _⟩ => ⟨S2048x256, .f32⟩
  | .hbm, ⟨6, _⟩ => ⟨S2048x256, .f32⟩
  | .hbm, ⟨7, _⟩ => ⟨S256x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .i1⟩
  | .hbm, ⟨12, _⟩ => ⟨S2048x2048, .i32⟩
  | .hbm, ⟨13, _⟩ => ⟨S_, .i32⟩
  | .hbm, ⟨14, _⟩ => ⟨S2048, .i32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048x1, .f32⟩
  | .hbm, ⟨21, _⟩ => ⟨S2048x1, .f32⟩
  | _, _ => ⟨S2048x4x84x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  shapeCasts_S2048x4x84x84_S2048x28224 : S2048x4x84x84.ShapeCasts S2048x28224
  transposes_S256x28224_S28224x256_1_0 : S256x28224.Transposes [1, 0] S28224x256
  transposes_S2048x256_S256x2048_1_0 : S2048x256.Transposes [1, 0] S256x2048
  bcast_S_S2048x2048 : S_.BroadcastsInDim S2048x2048 (![] : Fin 0 → Fin S2048x2048.rank)
  natLt_1_32 : 1 < 32
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  dot_S2048x28224_S28224x256_S2048x256_1_0_0_1_n_n_wf : DotDims.WF S2048x28224 S28224x256 S2048x256 [1] [0] [0] [1] [] []
  dot_S2048x256_S256x2048_S2048x2048_1_0_0_1_n_n_wf : DotDims.WF S2048x256 S256x2048 S2048x2048 [1] [0] [0] [1] [] []

variable [Facts₀]

def dot_S2048x28224_S28224x256_S2048x256_1_0_0_1_n_n : DotDims S2048x28224 S28224x256 S2048x256 where
  lhsContracting := [1]
  rhsContracting := [0]
  lhsNonContracting := [0]
  rhsNonContracting := [1]
  lhsBatch := []
  rhsBatch := []
  wf := dot_S2048x28224_S28224x256_S2048x256_1_0_0_1_n_n_wf
def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf

class Facts : Prop extends Facts₀ where

variable [Facts]
-- ==== Proof.KBody.lean ====
/-
  The two kernel bodies of the program, each run once at a generic grid point.

  A grid point of the first call is handed a block of 64 observation rows and the whole table of directions and
  leaves, in its output block, one value computed from those two; a point of the second call is handed a block of
  256 sign rows, the whole sign table and a block of 256 weights, and leaves one value computed from the three.
  Here: what each staging buffer holds before and after the body at a point, the body's run, and the per-call
  data the launch needs. The contents the arrays have when a call is entered are a parameter.
-/
import proofs.«162486_j44023414784108_2_alg».proof.Proof.Gen.Kernel.Launch
import proofs.«162486_j44023414784108_2_alg».proof.Proof.Gen.Kernel.Skeleton
import proofs.«162486_j44023414784108_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Regions
variable (V : (c : Dev nD) → (b : Ref sig .tc) → Buf (Elt F) ((c : Thread nD τ).loc b))

/-! ## The first call -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S64x28224 := Rect.unit (s := S64x28224) ![0, 0] S64x28224.size inb_S64x28224_S64x28224_0_0
abbrev r0_1 : Rect S256x28224 := Rect.unit (s := S256x28224) ![0, 0] S256x28224.size inb_S256x28224_S256x28224_0_0
abbrev r0_2 : Rect S64x256 := Rect.unit (s := S64x256) ![0, 0] S64x256.size inb_S64x256_S64x256_0_0

/-- The output block after the body, from the two input blocks: its one store. -/
def out0_2 (x0 : Vec F S64x28224 .f32) (x1 : Vec F S256x28224 .bf16) : Vec F S64x256 .bf16 :=
  View.canon [⟨r0_2, k0_pay1 (View.ld x0 r0_0) (View.ld x1 r0_1)⟩]

/-- The store covers the block. -/
theorem cover0_2 (p0 : Vec F S64x256 .bf16) (y : S64x256.Idx) :
    ∃ pc ∈ ([⟨r0_2, p0⟩] : List (View.Piece (Elt F) S64x256 .bf16)), y ∈ pc.1.set :=
  View.cover_of_tiled [⟨r0_2, p0⟩] S64x256.size (by rfl) y

set_option maxHeartbeats 1000000 in
/-- The body on whole staging buffers, the inputs' at given contents and the output's at anything, runs to the end
    leaving the inputs' as they were and the output's at `out0_2` of them. -/
theorem sound_kernel0 (c : Dev nD) (E : Set ℕ) (i : grid0.Coords) (arg1 : Memref sig .tc .vmem S64x28224 .f32) (harg1 : arg1.IsWhole)
    (arg2 : Memref sig .tc .vmem S256x28224 .bf16) (harg2 : arg2.IsWhole) (arg3 : Memref sig .tc .vmem S64x256 .bf16) (harg3 : arg3.IsWhole)
    (x0 : Vec F S64x28224 .f32) (x1 : Vec F S256x28224 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__sign_kernel i arg1 harg1 arg2 harg2 arg3 harg3) K := by
  simp only [cc0__sign_kernel_eq_skeleton]; unfold cc0__sign_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The first call's data on core `c`: the arrays as the call finds them; after the body each input's buffer at its block and
    the output's at `out0_2` of the input blocks; nothing else used, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! ## The second call -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S256x256 := Rect.unit (s := S256x256) ![0, 0] S256x256.size inb_S256x256_S256x256_0_0
abbrev r1_1 : Rect S2048x256 := Rect.unit (s := S2048x256) ![0, 0] S2048x256.size inb_S2048x256_S2048x256_0_0
abbrev r1_2 : Rect S256x1 := Rect.unit (s := S256x1) ![0, 0] S256x1.size inb_S256x1_S256x1_0_0

def out1_3 (x0 : Vec F S256x256 .bf16) (x1 : Vec F S2048x256 .bf16) (x2 : Vec F S256x1 .f32) : Vec F S256x1 .f32 :=
  View.canon [⟨r1_2, k1_pay1 (View.ld x0 r1_0) (View.ld x1 r1_1) (View.ld x2 r1_2)⟩]

theorem cover1_3 (p0 : Vec F S256x1 .f32) (y : S256x1.Idx) :
    ∃ pc ∈ ([⟨r1_2, p0⟩] : List (View.Piece (Elt F) S256x1 .f32)), y ∈ pc.1.set :=
  View.cover_of_tiled [⟨r1_2, p0⟩] S256x1.size (by rfl) y

set_option maxHeartbeats 1000000 in
theorem sound_kernel1 (c : Dev nD) (E : Set ℕ) (i : grid1.Coords) (arg1 : Memref sig .tc .vmem S256x256 .bf16) (harg1 : arg1.IsWhole)
    (arg2 : Memref sig .tc .vmem S2048x256 .bf16) (harg2 : arg2.IsWhole) (arg3 : Memref sig .tc .vmem S256x1 .f32) (harg3 : arg3.IsWhole)
    (arg4 : Memref sig .tc .vmem S256x1 .f32) (harg4 : arg4.IsWhole)
    (x0 : Vec F S256x256 .bf16) (x1 : Vec F S2048x256 .bf16) (x2 : Vec F S256x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__count_kernel i arg1 harg1 arg2 harg2 arg3 harg3 arg4 harg4) K := by
  simp only [cc1__count_kernel_eq_skeleton]; unfold cc1__count_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The second call's data on core `c`. The sign table is handed to the call through two windows: each holds it at one
    half of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KRun.lean ====
/-
  The program's run from launch to return, and what its arrays hold at the end.

  The program is two host steps (a reshape of the observations, a change of format of the directions), the first call,
  which writes the sign table, and the second call, which reads the sign table through TWO of its windows (a block of
  rows, and the whole table) and writes the rewards. Between steps every array of the device holds known contents:
  the launch contents, then what the host steps compute, then the first call's write-backs folded into the sign table,
  then the second call's write-backs folded into the reward array. The second call holds the sign table once but
  serves two windows from it: the table is lent to each window at one half of the full share, and the halves are
  joined again when the call ends (both still hold the contents the call found, an input being never written).
  The arguments are written by no step, so they end as launched.
-/
import proofs.«162486_j44023414784108_2_alg».proof.Proof.KBody
import proofs.«162486_j44023414784108_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The arrays' contents between steps -/

/-- At launch. -/
abbrev W0 : Dev nD → Valuation τ sig (Elt F) := fun c b => (s₀ m ρ).mem ((c : Dev nD), b)
/-- After the two host steps (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- What the second call's write-backs leave in the reward array. -/
def res3 (c : Dev nD) : Buf (Elt F) ((c : Thread nD τ).loc main_v3) := (dat1 (V2 m ρ) c).arrAt 3 cfg1.N
/-- After the second call: the reward array at that, every other buffer as entered. -/
def W3 (c : Dev nD) : Valuation τ sig (Elt F) := Function.update (W2 m ρ c) main_v3 (res3 m ρ c)
abbrev V3 : (c : Dev nD) → (b : Ref sig .tc) → Buf (Elt F) ((c : Thread nD τ).loc b) := fun c b => W3 m ρ c b
theorem W3_v3 (c : Dev nD) : W3 m ρ c (Proc.devRef .tc main_v3) = res3 m ρ c := by
  unfold W3; exact Function.update_self ..
theorem W3_of_ne (c : Dev nD) (b : Ref sig .tc) (hb : b ≠ main_v3) : W3 m ρ c (Proc.devRef .tc b) = W2 m ρ c (Proc.devRef .tc b) := by
  unfold W3; exact Function.update_of_ne (StableHlo.devRef_ne_of_ne hb) _ _

/-! ## No step writes an argument -/

theorem W1_of (c : Dev nD) (r : Ref sig .tc) (h : r ∉ hostOps0_W) : W1 m ρ c r = W0 m ρ c r :=
  StableHlo.after_of_writes_sub hostOps0 _ hostOps0_writes h
theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <| (W1_of m ρ c main_arg0 (by decide)).trans rfl
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <| (W1_of m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <| (W1_of m ρ c main_arg2 (by decide)).trans rfl

/-! ## The calls' data, and what rides beside the buffers -/

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The second call's arrays out of the device's buffers, and back -/

/-- The second call's three distinct arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_arg1) ↦{fullShare} V main_arg1) ∗ (((c : Thread nD τ).loc main_v3) ↦{fullShare} V main_v3)) := by
  unfold Pipeline.arrBufs
  exact bigSep_eq_bigSepL_of_eq [main_v2, main_arg1, main_v3] (by decide) (by decide) _

/-- ENTRY. The device's buffers at the contents the second call finds are its four windows' arrays — the sign table split
    in two halves for windows 0 and 1 — and the rest. -/
theorem entry1 (c : Dev nD) :
    (unscopedBufs (Ix := Unit) (Name := ℕ) (U := UR sig nD τ) (Lvl := ℕ) c (V2 m ρ c) : sProp 𝕄)
      ⊢ iprop((dat1 (V2 m ρ) c).arrays ((dat1 (V2 m ρ) c).arrAt · 0)
          ∗ Pipeline.unscopedRest (Ix := Unit) (Name := ℕ) (U := UR sig nD τ) (Lvl := ℕ) spec1 c (V2 m ρ c)) := by
  rw [Pipeline.PerCore.unscopedBufs_split₀ (fun _ : Dev nD => cfgs) 1 c winFacts₀1.arr_unscoped (V2 m ρ c)]
  refine sep_mono ?_ .rfl
  refine (Entails.of_eq (arrBufs1_eq c (V2 m ρ c))).trans ?_
  unfold Dat.arrays
  rw [bigSep_W1,
    (arr_whole1 0).set_eq_univ, (arr_whole1 2).set_eq_univ, (arr_whole1 3).set_eq_univ,
    show (dat1 (V2 m ρ) c).share 0 = fullShare.left from rfl, show (dat1 (V2 m ρ) c).share 1 = fullShare.right from rfl,
    show (dat1 (V2 m ρ) c).share 2 = fullShare from rfl, show (dat1 (V2 m ρ) c).share 3 = fullShare from rfl]
  have hsplitS : ((((c.tc : Thread nD τ).loc main_v2) ↦{fullShare} V2 m ρ c main_v2) : sProp 𝕄)
      ⊢ iprop((((c.tc : Thread nD τ).loc main_v2) ↦{fullShare.left} V2 m ρ c main_v2) ∗ (((c.tc : Thread nD τ).loc main_v2) ↦{fullShare.right} V2 m ρ c main_v2)) :=
    (pointsTo_share (PosShare.mem_left_op_right fullShare)).1
  iintro ⟨H2, H1, H3⟩
  ihave H := hsplitS $$ H2
  icases H with ⟨H2l, H2r⟩
  isplitl [H2l]; · iexact H2l
  isplitl [H2r]; · iexact H2r
  isplitl [H1]; · iexact H1
  iexact H3

/-- EXIT. The four arrays after the write-backs — the two halves of the sign table, still at what the call found, joined
    — and the rest are the device's buffers at the exit contents. -/
theorem exit1 (c : Dev nD) :
    iprop((dat1 (V2 m ρ) c).arrays ((dat1 (V2 m ρ) c).arrAt · cfg1.N)
        ∗ Pipeline.unscopedRest (Ix := Unit) (Name := ℕ) (U := UR sig nD τ) (Lvl := ℕ) spec1 c (V2 m ρ c))
      ⊢ (unscopedBufs (Ix := Unit) (Name := ℕ) (U := UR sig nD τ) (Lvl := ℕ) c (V3 m ρ c) : sProp 𝕄) := by
  rw [Pipeline.PerCore.unscopedBufs_split₀ (fun _ : Dev nD => cfgs) 1 c winFacts₀1.arr_unscoped (V3 m ρ c)]
  refine sep_mono ?_ (Entails.of_eq ?_)
  · refine BIBase.Entails.trans ?_ (Entails.of_eq (arrBufs1_eq c (V3 m ρ c)).symm)
    unfold Dat.arrays
    rw [bigSep_W1,
      (arr_whole1 0).set_eq_univ, (arr_whole1 2).set_eq_univ, (arr_whole1 3).set_eq_univ,
      show (dat1 (V2 m ρ) c).share 0 = fullShare.left from rfl, show (dat1 (V2 m ρ) c).share 1 = fullShare.right from rfl,
      show (dat1 (V2 m ρ) c).share 2 = fullShare from rfl, show (dat1 (V2 m ρ) c).share 3 = fullShare from rfl]
    have e0 : (dat1 (V2 m ρ) c).arrAt 0 cfg1.N = V3 m ρ c main_v2 :=
      (((dat1 (V2 m ρ) c).arrAt_in 0 rfl _).trans (A_eq1 (V2 m ρ) c 0)).trans (W3_of_ne m ρ c main_v2 (by decide)).symm
    have e1 : (dat1 (V2 m ρ) c).arrAt 1 cfg1.N = V3 m ρ c main_v2 :=
      (((dat1 (V2 m ρ) c).arrAt_in 1 rfl _).trans (A_eq1 (V2 m ρ) c 1)).trans (W3_of_ne m ρ c main_v2 (by decide)).symm
    have e2 : (dat1 (V2 m ρ) c).arrAt 2 cfg1.N = V3 m ρ c main_arg1 :=
      (((dat1 (V2 m ρ) c).arrAt_in 2 rfl _).trans (A_eq1 (V2 m ρ) c 2)).trans (W3_of_ne m ρ c main_arg1 (by decide)).symm
    have e3 : (dat1 (V2 m ρ) c).arrAt 3 cfg1.N = V3 m ρ c main_v3 := (W3_v3 m ρ c).symm
    dsimp only []
    rw [e0, e1, e2, e3]
    have hjoinS : iprop((((c.tc : Thread nD τ).loc main_v2) ↦{fullShare.left} V3 m ρ c main_v2) ∗ (((c.tc : Thread nD τ).loc main_v2) ↦{fullShare.right} V3 m ρ c main_v2))
        ⊢ ((((c.tc : Thread nD τ).loc main_v2) ↦{fullShare} V3 m ρ c main_v2) : sProp 𝕄) :=
      (pointsTo_share (PosShare.mem_left_op_right fullShare)).2
    iintro ⟨H0, H1, H2, H3⟩
    ihave H := hjoinS $$ [H0 H1]
    · isplitl [H0]; · iexact H0
      iexact H1
    isplitl [H]; · iexact H
    isplitl [H2]; · iexact H2
    iexact H3
  · unfold Pipeline.unscopedRest
    refine bigSep_congr fun b hb => ?_
    have hb3 : b ≠ main_v3 := fun e => (Finset.mem_sdiff.mp hb).2 (Finset.mem_image.mpr ⟨3, Finset.mem_univ _, e.symm⟩)
    rw [show V3 m ρ c b = V2 m ρ c b from W3_of_ne m ρ c b hb3]

/-! ## The calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin; isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and every final state holds, at every buffer that outlives the calls, the contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Cert.Kernel.Hand

end
-- ==== Proof.KIBody.lean ====
/-
  The two kernel bodies of the program, each run once at a generic grid point.

  A grid point of the first call is handed a block of 64 observation rows and the whole table of directions and
  leaves, in its output block, one value computed from those two; a point of the second call is handed a block of
  256 sign rows, the whole sign table and a block of 256 weights, and leaves one value computed from the three.
  Here: what each staging buffer holds before and after the body at a point, the body's run, and the per-call
  data the launch needs. The contents the arrays have when a call is entered are a parameter.
-/
import proofs.«162486_j44023414784108_2_alg».proof.Proof.Gen.KernelIdeal.Launch
import proofs.«162486_j44023414784108_2_alg».proof.Proof.Gen.KernelIdeal.Skeleton
import proofs.«162486_j44023414784108_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The first call -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S64x28224 := Rect.unit (s := S64x28224) ![0, 0] S64x28224.size inb_S64x28224_S64x28224_0_0
abbrev r0_1 : Rect S256x28224 := Rect.unit (s := S256x28224) ![0, 0] S256x28224.size inb_S256x28224_S256x28224_0_0
abbrev r0_2 : Rect S64x256 := Rect.unit (s := S64x256) ![0, 0] S64x256.size inb_S64x256_S64x256_0_0

/-- The output block after the body, from the two input blocks: its one store. -/
def out0_2 (x0 : Vec F S64x28224 .f32) (x1 : Vec F S256x28224 .bf16) : Vec F S64x256 .bf16 :=
  View.canon [⟨r0_2, k0_pay1 (View.ld x0 r0_0) (View.ld x1 r0_1)⟩]

/-- The store covers the block. -/
theorem cover0_2 (p0 : Vec F S64x256 .bf16) (y : S64x256.Idx) :
    ∃ pc ∈ ([⟨r0_2, p0⟩] : List (View.Piece (Elt F) S64x256 .bf16)), y ∈ pc.1.set :=
  View.cover_of_tiled [⟨r0_2, p0⟩] S64x256.size (by rfl) y

set_option maxHeartbeats 1000000 in
/-- The body on whole staging buffers, the inputs' at given contents and the output's at anything, runs to the end
    leaving the inputs' as they were and the output's at `out0_2` of them. -/
theorem sound_kernel0 (c : Dev nD) (E : Set ℕ) (i : grid0.Coords) (arg1 : Memref sig .tc .vmem S64x28224 .f32) (harg1 : arg1.IsWhole)
    (arg2 : Memref sig .tc .vmem S256x28224 .bf16) (harg2 : arg2.IsWhole) (arg3 : Memref sig .tc .vmem S64x256 .bf16) (harg3 : arg3.IsWhole)
    (x0 : Vec F S64x28224 .f32) (x1 : Vec F S256x28224 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__sign_kernel i arg1 harg1 arg2 harg2 arg3 harg3) K := by
  simp only [cc0__sign_kernel_eq_skeleton]; unfold cc0__sign_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The first call's data on core `c`: the arrays as the call finds them; after the body each input's buffer at its block and
    the output's at `out0_2` of the input blocks; nothing else used, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! ## The second call -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S256x256 := Rect.unit (s := S256x256) ![0, 0] S256x256.size inb_S256x256_S256x256_0_0
abbrev r1_1 : Rect S2048x256 := Rect.unit (s := S2048x256) ![0, 0] S2048x256.size inb_S2048x256_S2048x256_0_0
abbrev r1_2 : Rect S256x1 := Rect.unit (s := S256x1) ![0, 0] S256x1.size inb_S256x1_S256x1_0_0

def out1_3 (x0 : Vec F S256x256 .bf16) (x1 : Vec F S2048x256 .bf16) (x2 : Vec F S256x1 .f32) : Vec F S256x1 .f32 :=
  View.canon [⟨r1_2, k1_pay1 (View.ld x0 r1_0) (View.ld x1 r1_1) (View.ld x2 r1_2)⟩]

theorem cover1_3 (p0 : Vec F S256x1 .f32) (y : S256x1.Idx) :
    ∃ pc ∈ ([⟨r1_2, p0⟩] : List (View.Piece (Elt F) S256x1 .f32)), y ∈ pc.1.set :=
  View.cover_of_tiled [⟨r1_2, p0⟩] S256x1.size (by rfl) y

set_option maxHeartbeats 1000000 in
theorem sound_kernel1 (c : Dev nD) (E : Set ℕ) (i : grid1.Coords) (arg1 : Memref sig .tc .vmem S256x256 .bf16) (harg1 : arg1.IsWhole)
    (arg2 : Memref sig .tc .vmem S2048x256 .bf16) (harg2 : arg2.IsWhole) (arg3 : Memref sig .tc .vmem S256x1 .f32) (harg3 : arg3.IsWhole)
    (arg4 : Memref sig .tc .vmem S256x1 .f32) (harg4 : arg4.IsWhole)
    (x0 : Vec F S256x256 .bf16) (x1 : Vec F S2048x256 .bf16) (x2 : Vec F S256x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__count_kernel i arg1 harg1 arg2 harg2 arg3 harg3 arg4 harg4) K := by
  simp only [cc1__count_kernel_eq_skeleton]; unfold cc1__count_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The second call's data on core `c`. The sign table is handed to the call through two windows: each holds it at one
    half of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIRun.lean ====
/-
  The program's run from launch to return, and what its arrays hold at the end.

  The program is two host steps (a reshape of the observations, a change of format of the directions), the first call,
  which writes the sign table, and the second call, which reads the sign table through TWO of its windows (a block of
  rows, and the whole table) and writes the rewards. Between steps every array of the device holds known contents:
  the launch contents, then what the host steps compute, then the first call's write-backs folded into the sign table,
  then the second call's write-backs folded into the reward array. The second call holds the sign table once but
  serves two windows from it: the table is lent to each window at one half of the full share, and the halves are
  joined again when the call ends (both still hold the contents the call found, an input being never written).
  The arguments are written by no step, so they end as launched.
-/
import proofs.«162486_j44023414784108_2_alg».proof.Proof.KIBody
import proofs.«162486_j44023414784108_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents between steps -/

/-- At launch. -/
abbrev W0 : Dev nD → Valuation τ sig (Elt F) := fun c b => (s₀ m ρ).mem ((c : Dev nD), b)
/-- After the two host steps (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- What the second call's write-backs leave in the reward array. -/
def res3 (c : Dev nD) : Buf (Elt F) ((c : Thread nD τ).loc main_v3) := (dat1 (V2 m ρ) c).arrAt 3 cfg1.N
/-- After the second call: the reward array at that, every other buffer as entered. -/
def W3 (c : Dev nD) : Valuation τ sig (Elt F) := Function.update (W2 m ρ c) main_v3 (res3 m ρ c)
abbrev V3 : (c : Dev nD) → (b : Ref sig .tc) → Buf (Elt F) ((c : Thread nD τ).loc b) := fun c b => W3 m ρ c b
theorem W3_v3 (c : Dev nD) : W3 m ρ c (Proc.devRef .tc main_v3) = res3 m ρ c := by
  unfold W3; exact Function.update_self ..
theorem W3_of_ne (c : Dev nD) (b : Ref sig .tc) (hb : b ≠ main_v3) : W3 m ρ c (Proc.devRef .tc b) = W2 m ρ c (Proc.devRef .tc b) := by
  unfold W3; exact Function.update_of_ne (StableHlo.devRef_ne_of_ne hb) _ _

/-! ## No step writes an argument -/

theorem W1_of (c : Dev nD) (r : Ref sig .tc) (h : r ∉ hostOps0_W) : W1 m ρ c r = W0 m ρ c r :=
  StableHlo.after_of_writes_sub hostOps0 _ hostOps0_writes h
theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <| (W1_of m ρ c main_arg0 (by decide)).trans rfl
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <| (W1_of m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <| (W1_of m ρ c main_arg2 (by decide)).trans rfl

/-! ## The calls' data, and what rides beside the buffers -/

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The second call's arrays out of the device's buffers, and back -/

/-- The second call's three distinct arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_arg1) ↦{fullShare} V main_arg1) ∗ (((c : Thread nD τ).loc main_v3) ↦{fullShare} V main_v3)) := by
  unfold Pipeline.arrBufs
  exact bigSep_eq_bigSepL_of_eq [main_v2, main_arg1, main_v3] (by decide) (by decide) _

/-- ENTRY. The device's buffers at the contents the second call finds are its four windows' arrays — the sign table split
    in two halves for windows 0 and 1 — and the rest. -/
theorem entry1 (c : Dev nD) :
    (unscopedBufs (Ix := Unit) (Name := ℕ) (U := UR sig nD τ) (Lvl := ℕ) c (V2 m ρ c) : sProp 𝕄)
      ⊢ iprop((dat1 (V2 m ρ) c).arrays ((dat1 (V2 m ρ) c).arrAt · 0)
          ∗ Pipeline.unscopedRest (Ix := Unit) (Name := ℕ) (U := UR sig nD τ) (Lvl := ℕ) spec1 c (V2 m ρ c)) := by
  rw [Pipeline.PerCore.unscopedBufs_split₀ (fun _ : Dev nD => cfgs) 1 c winFacts₀1.arr_unscoped (V2 m ρ c)]
  refine sep_mono ?_ .rfl
  refine (Entails.of_eq (arrBufs1_eq c (V2 m ρ c))).trans ?_
  unfold Dat.arrays
  rw [bigSep_W1,
    (arr_whole1 0).set_eq_univ, (arr_whole1 2).set_eq_univ, (arr_whole1 3).set_eq_univ,
    show (dat1 (V2 m ρ) c).share 0 = fullShare.left from rfl, show (dat1 (V2 m ρ) c).share 1 = fullShare.right from rfl,
    show (dat1 (V2 m ρ) c).share 2 = fullShare from rfl, show (dat1 (V2 m ρ) c).share 3 = fullShare from rfl]
  have hsplitS : ((((c.tc : Thread nD τ).loc main_v2) ↦{fullShare} V2 m ρ c main_v2) : sProp 𝕄)
      ⊢ iprop((((c.tc : Thread nD τ).loc main_v2) ↦{fullShare.left} V2 m ρ c main_v2) ∗ (((c.tc : Thread nD τ).loc main_v2) ↦{fullShare.right} V2 m ρ c main_v2)) :=
    (pointsTo_share (PosShare.mem_left_op_right fullShare)).1
  iintro ⟨H2, H1, H3⟩
  ihave H := hsplitS $$ H2
  icases H with ⟨H2l, H2r⟩
  isplitl [H2l]; · iexact H2l
  isplitl [H2r]; · iexact H2r
  isplitl [H1]; · iexact H1
  iexact H3

/-- EXIT. The four arrays after the write-backs — the two halves of the sign table, still at what the call found, joined
    — and the rest are the device's buffers at the exit contents. -/
theorem exit1 (c : Dev nD) :
    iprop((dat1 (V2 m ρ) c).arrays ((dat1 (V2 m ρ) c).arrAt · cfg1.N)
        ∗ Pipeline.unscopedRest (Ix := Unit) (Name := ℕ) (U := UR sig nD τ) (Lvl := ℕ) spec1 c (V2 m ρ c))
      ⊢ (unscopedBufs (Ix := Unit) (Name := ℕ) (U := UR sig nD τ) (Lvl := ℕ) c (V3 m ρ c) : sProp 𝕄) := by
  rw [Pipeline.PerCore.unscopedBufs_split₀ (fun _ : Dev nD => cfgs) 1 c winFacts₀1.arr_unscoped (V3 m ρ c)]
  refine sep_mono ?_ (Entails.of_eq ?_)
  · refine BIBase.Entails.trans ?_ (Entails.of_eq (arrBufs1_eq c (V3 m ρ c)).symm)
    unfold Dat.arrays
    rw [bigSep_W1,
      (arr_whole1 0).set_eq_univ, (arr_whole1 2).set_eq_univ, (arr_whole1 3).set_eq_univ,
      show (dat1 (V2 m ρ) c).share 0 = fullShare.left from rfl, show (dat1 (V2 m ρ) c).share 1 = fullShare.right from rfl,
      show (dat1 (V2 m ρ) c).share 2 = fullShare from rfl, show (dat1 (V2 m ρ) c).share 3 = fullShare from rfl]
    have e0 : (dat1 (V2 m ρ) c).arrAt 0 cfg1.N = V3 m ρ c main_v2 :=
      (((dat1 (V2 m ρ) c).arrAt_in 0 rfl _).trans (A_eq1 (V2 m ρ) c 0)).trans (W3_of_ne m ρ c main_v2 (by decide)).symm
    have e1 : (dat1 (V2 m ρ) c).arrAt 1 cfg1.N = V3 m ρ c main_v2 :=
      (((dat1 (V2 m ρ) c).arrAt_in 1 rfl _).trans (A_eq1 (V2 m ρ) c 1)).trans (W3_of_ne m ρ c main_v2 (by decide)).symm
    have e2 : (dat1 (V2 m ρ) c).arrAt 2 cfg1.N = V3 m ρ c main_arg1 :=
      (((dat1 (V2 m ρ) c).arrAt_in 2 rfl _).trans (A_eq1 (V2 m ρ) c 2)).trans (W3_of_ne m ρ c main_arg1 (by decide)).symm
    have e3 : (dat1 (V2 m ρ) c).arrAt 3 cfg1.N = V3 m ρ c main_v3 := (W3_v3 m ρ c).symm
    dsimp only []
    rw [e0, e1, e2, e3]
    have hjoinS : iprop((((c.tc : Thread nD τ).loc main_v2) ↦{fullShare.left} V3 m ρ c main_v2) ∗ (((c.tc : Thread nD τ).loc main_v2) ↦{fullShare.right} V3 m ρ c main_v2))
        ⊢ ((((c.tc : Thread nD τ).loc main_v2) ↦{fullShare} V3 m ρ c main_v2) : sProp 𝕄) :=
      (pointsTo_share (PosShare.mem_left_op_right fullShare)).2
    iintro ⟨H0, H1, H2, H3⟩
    ihave H := hjoinS $$ [H0 H1]
    · isplitl [H0]; · iexact H0
      iexact H1
    isplitl [H]; · iexact H
    isplitl [H2]; · iexact H2
    iexact H3
  · unfold Pipeline.unscopedRest
    refine bigSep_congr fun b hb => ?_
    have hb3 : b ≠ main_v3 := fun e => (Finset.mem_sdiff.mp hb).2 (Finset.mem_image.mpr ⟨3, Finset.mem_univ _, e.symm⟩)
    rw [show V3 m ρ c b = V2 m ρ c b from W3_of_ne m ρ c b hb3]

/-! ## The calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin; isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and every final state holds, at every buffer that outlives the calls, the contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Cert.KernelIdeal.Hand

end
-- ==== Proof.LibBitCount.lean ====
/-
  Counting one-bit words.

  A one-bit word widened to 32 bits is the number 0 or 1, so a 32-bit two's-complement sum of fewer than 2^31 of them
  never wraps around: read back as a signed integer, and that integer as an extended real, the sum is the sum of the
  bits' own values. This is the step between "convert every bit, then add the numbers" and "add the bits as integers,
  then convert the total".
-/
import Idealize.ShloMosaic.PureOps.Reduce
import Idealize.ShloMosaic.PureOps.Ideal

namespace Cert.BitCount

open Idealize.ShloMosaic

/-- The value of a one-bit word as an extended real: 0 or 1. -/
def ind (b : BitVec 1) : EReal := ((b.toNat : ℝ) : EReal)

theorem ind_one : ind 1#1 = 1 := by
  show (((1 : ℕ) : ℝ) : EReal) = 1
  rw [Nat.cast_one, EReal.coe_one]

theorem ind_zero : ind 0#1 = 0 := by
  show (((0 : ℕ) : ℝ) : EReal) = 0
  rw [Nat.cast_zero, EReal.coe_zero]

/-- A one-bit word's unsigned value is at most one. -/
theorem toNat_le_one (b : BitVec 1) : b.toNat ≤ 1 := by
  have h := b.isLt
  omega

/-- Widening a one-bit word to 32 bits keeps its unsigned value. -/
theorem toNat_widen (b : BitVec 1) : (b.setWidth 32).toNat = b.toNat := by
  rw [BitVec.toNat_setWidth]
  have h := b.isLt
  exact Nat.mod_eq_of_lt (by omega)

/-- One widened bit, read as a signed integer and then as an extended real, is the bit's value. -/
theorem signed_widen (b : BitVec 1) : ((((b.setWidth 32).toInt : ℤ) : ℝ) : EReal) = ind b := by
  have h : (b.setWidth 32).toInt = ((b.toNat : ℕ) : ℤ) := by
    rw [BitVec.toInt_eq_toNat_of_lt (by rw [toNat_widen]; have := toNat_le_one b; omega), toNat_widen]
  rw [h, Int.cast_natCast]
  rfl

/-- The set bits among a finite family are at most as many as the family. -/
theorem sum_toNat_le_card {ι : Type*} (f : ι → BitVec 1) (S : Finset ι) : ∑ k ∈ S, (f k).toNat ≤ S.card := by
  rw [Finset.card_eq_sum_ones]
  exact Finset.sum_le_sum fun k _ => toNat_le_one (f k)

/-- The fold of 32-bit addition over a finite family of widened bits, started at zero, has as its unsigned value the
    number of set bits, as long as the family has fewer than 2^32 members (no carry leaves the word). -/
theorem toNat_fold_widen {ι : Type*} [DecidableEq ι] (f : ι → BitVec 1) (S : Finset ι) (hS : S.card < 2 ^ 32) :
    (S.fold IntOp.addi 0#32 (fun k => (f k).setWidth 32)).toNat = ∑ k ∈ S, (f k).toNat := by
  induction S using Finset.induction_on with
  | empty => rfl
  | insert a S ha ih =>
    have hc : S.card < 2 ^ 32 := by
      rw [Finset.card_insert_of_notMem ha] at hS
      omega
    have hle := sum_toNat_le_card f S
    have h1 := toNat_le_one (f a)
    rw [Finset.fold_insert ha, Finset.sum_insert ha]
    show ((f a).setWidth 32 + S.fold IntOp.addi 0#32 (fun k => (f k).setWidth 32)).toNat = _
    rw [BitVec.toNat_add, ih hc, toNat_widen]
    rw [Finset.card_insert_of_notMem ha] at hS
    exact Nat.mod_eq_of_lt (by omega)

/-- The values of finitely many bits, added as naturals and the total read as an extended real, is the sum of the bits'
    values as extended reals. -/
theorem cast_sum_toNat {ι : Type*} [DecidableEq ι] (f : ι → BitVec 1) (S : Finset ι) :
    (((∑ k ∈ S, (f k).toNat : ℕ) : ℝ) : EReal) = ∑ k ∈ S, ind (f k) := by
  induction S using Finset.induction_on with
  | empty => rw [Finset.sum_empty, Finset.sum_empty, Nat.cast_zero, EReal.coe_zero]
  | insert a S ha ih =>
    rw [Finset.sum_insert ha, Finset.sum_insert ha, Nat.cast_add, EReal.coe_add, ih]
    rfl

/-- THE COUNT: the 32-bit sum of fewer than 2^31 widened bits, read as a SIGNED integer and that as an extended real, is
    the sum of the bits' values (the total is below 2^31, so its sign bit is clear and no carry left the word). -/
theorem signed_fold_widen {ι : Type*} [DecidableEq ι] (f : ι → BitVec 1) (S : Finset ι) (hS : S.card < 2 ^ 31) :
    ((((S.fold IntOp.addi 0#32 (fun k => (f k).setWidth 32)).toInt : ℤ) : ℝ) : EReal) = ∑ k ∈ S, ind (f k) := by
  have hn := toNat_fold_widen f S (by omega)
  have hle := sum_toNat_le_card f S
  have h : (S.fold IntOp.addi 0#32 (fun k => (f k).setWidth 32)).toInt = ((∑ k ∈ S, (f k).toNat : ℕ) : ℤ) := by
    rw [BitVec.toInt_eq_toNat_of_lt (by rw [hn]; omega), hn]
  rw [h, Int.cast_natCast]
  exact cast_sum_toNat f S

end Cert.BitCount
-- ==== Proof.Spec.lean ====
/-
  The function both programs compute, written once over plain indices.

  A batch of 2048 observations, each flattened to 28224 numbers, is projected on 256 directions; every projection is
  replaced by its sign (-1, 0 or 1); two observations "hit" when their 256 signs agree everywhere, that is when the
  inner product of their sign rows reaches 255.5; the count of an observation is the number of observations it hits,
  and its reward is one over the square root of that count, times its own weight.

  Everything is over the extended reals; a comparison is a one-bit word and its value (0 or 1) is what is added up.
-/
import Idealize.ShloMosaic.PureOps.Ideal
import Idealize.ShloMosaic.Lib.ValueIdx
import proofs.«162486_j44023414784108_2_alg».proof.Proof.LibBitCount

noncomputable section

namespace Cert.Spec

open Idealize.ShloMosaic Idealize.ShloMosaic.ValueIdx

/-- The four-axis position of entry `d` of flattened observation `r`: row-major over [4, 84, 84]. -/
def unflat (r : Fin 2048) (d : Fin 28224) : (⟨4, ![2048, 4, 84, 84]⟩ : Shape).Idx := fun a => match a with
  | ⟨0, _⟩ => ⟨r.val, r.isLt⟩
  | ⟨1, _⟩ => ⟨d.val / 7056, by have := d.isLt; show d.val / 7056 < 4; omega⟩
  | ⟨2, _⟩ => ⟨d.val / 84 % 84, by show d.val / 84 % 84 < 84; omega⟩
  | ⟨3, _⟩ => ⟨d.val % 84, by show d.val % 84 < 84; omega⟩

/-- The projection of observation `r` on direction `k`. -/
def proj (X : Fin 2048 → Fin 28224 → EReal) (A : Fin 256 → Fin 28224 → EReal) (r : Fin 2048) (k : Fin 256) : EReal :=
  ∑ d : Fin 28224, X r d * A k d

/-- The sign as a selection: where the absolute value is positive, -1 below zero and 1 otherwise; else the number itself
    (which is then zero). -/
def sgnSel (x : EReal) : EReal :=
  Scalar.select (Ideal.cmp .ogt (max x (-x)) (Ideal.ofBits .f32 0x00000000#32))
    (Scalar.select (Ideal.cmp .olt x (Ideal.ofBits .f32 0x00000000#32)) (Ideal.ofBits .f32 0xBF800000#32) (Ideal.ofBits .f32 0x3F800000#32))
    x

/-- Whether the sign rows of observations `r` and `j` reach the threshold 255.5, as a one-bit word. -/
def hit (s : Fin 2048 → Fin 256 → EReal) (r j : Fin 2048) : BitVec 1 :=
  Ideal.cmp .oge (∑ k : Fin 256, s r k * s j k) (Ideal.ofBits .f32 0x437F8000#32)

/-- How many observations `r` hits. -/
def count (s : Fin 2048 → Fin 256 → EReal) (r : Fin 2048) : EReal :=
  ∑ j : Fin 2048, Cert.BitCount.ind (hit s r j)

/-- The reward of observation `r`: one times the reciprocal square root of its count, times its weight. -/
def reward (s : Fin 2048 → Fin 256 → EReal) (w : Fin 2048 → EReal) (r : Fin 2048) : EReal :=
  (Ideal.ofBits .f32 0x3F800000#32 * Ideal.rsqrt (count s r)) * w r

end Cert.Spec

end
-- ==== Proof.LibContract.lean ====
/-
  A matrix unit's product over ONE contracted axis, read at an output position.

  At the exact instance a product into a zero accumulator is the sum, over the contraction's index type, of
  the products of the operands at the positions the dimension record assigns. When the contraction has one
  axis of extent `K`, that index type is `Fin K` up to a bijection, and the sum can be written over `Fin K`
  with the two operand positions named as functions of `k` — whatever axes the record contracts.
-/
import Idealize.ShloMosaic.Lib.ValueIdx
import Idealize.ShloMosaic.PureOps.Ideal.Laws

noncomputable section

namespace Cert.LibContract

open Idealize.ShloMosaic Idealize.ShloMosaic.ValueIdx

/-- A product into the zero accumulator, contracted over one axis of extent `K`, at the output position `j`:
    the sum over `k : Fin K` of the left operand at `li k` times the right operand at `ri k`, where `li`, `ri` are
    the positions the dimension record gives for the `k`-th contracted coordinate. -/
theorem matmul_zero_entry {sl sr so : Shape} {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (li : Fin K → sl.Idx) (ri : Fin K → sr.Idx)
    (hl : ∀ k, d.lhsIdx j ((contrEquiv1 d K hr hs).symm k) = li k)
    (hr' : ∀ k, d.rhsIdx j ((contrEquiv1 d K hr hs).symm k) = ri k) :
    FloatOps.matmul d prec l r (constant (F := Ideal) so .f32 0x00000000#32) j = ∑ k : Fin K, l (li k) * r (ri k) := by
  rw [Ideal.matmul_constant_zero_apply, ← Equiv.sum_comp (contrEquiv1 d K hr hs).symm]
  exact Finset.sum_congr rfl fun k _ => by rw [hl k, hr' k]

end Cert.LibContract

end
-- ==== Proof.LibKeepdims.lean ====
/-
  The two layout steps of a sum that keeps its axis (`jnp.sum(…, axis=1, keepdims=True)`), read at an index:
  a vector of row statistics `[a]` cast to a column `[a, 1]`, and that column broadcast along the rows to
  `[a, b]`. In row-major order the entry (i, 0) of an `[a, 1]` array is entry i of the `[a]` array, and a
  broadcast reads the operand's unit axis at 0 and its full axis at the result's coordinate. General in the
  extents; they complement the leading-unit-axis casts and the row broadcast `[1, b] → [a, b]` of the library.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelPay.lean ====
/-
  The two kernel bodies read at an entry, at the exact values (a float is an extended real, every operation exact,
  rounding to a narrower format the identity).

  The sign body stores, at row y and column k of its 64×256 block, the sign — in its selection form — of the inner product
  of row y of the observations' block with row k of the directions. The count body stores, at row y of its 256×1 block,
  one times the reciprocal square root of the number of sign rows of the whole table whose inner product with row y of the
  block reaches 255.5, times the weight of the row.

  Each product contracts axis 1 of both operands and keeps axis 0 of each, so its entry (y, k) is the sum over the
  contracted coordinate d of left (y, d) times right (k, d). Everything after a product is pointwise, except the sum
  along the lanes of the count body and the cast of its [256] result to a [256, 1] column.
-/
import proofs.«162486_j44023414784108_2_alg».proof.Proof.Spec
import proofs.«162486_j44023414784108_2_alg».proof.Proof.LibContract
import proofs.«162486_j44023414784108_2_alg».proof.Proof.LibKeepdims
import proofs.«162486_j44023414784108_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The two products read at an entry -/

theorem lhs0_0 (i : S64x256.Idx) (q : dot_S64x28224_S256x28224_S64x256_1_1_0_0_n_n.contr.Idx) :
    (dot_S64x28224_S256x28224_S64x256_1_1_0_0_n_n.lhsIdx i q 0).val = (i 0).val := by
  unfold DotDims.lhsIdx
  rw [dif_neg (show ¬(0 : Fin S64x28224.rank) ∈ dot_S64x28224_S256x28224_S64x256_1_1_0_0_n_n.lhsBatch by decide), dif_pos (show (0 : Fin S64x28224.rank) ∈ dot_S64x28224_S256x28224_S64x256_1_1_0_0_n_n.lhsNonContracting by decide)]
  rfl
theorem lhs0_1 (i : S64x256.Idx) (q : dot_S64x28224_S256x28224_S64x256_1_1_0_0_n_n.contr.Idx) :
    (dot_S64x28224_S256x28224_S64x256_1_1_0_0_n_n.lhsIdx i q 1).val = (q ⟨0, by decide⟩).val :=
  dot_S64x28224_S256x28224_S64x256_1_1_0_0_n_n.lhsIdx_val_of_single rfl i q
theorem rhs0_0 (i : S64x256.Idx) (q : dot_S64x28224_S256x28224_S64x256_1_1_0_0_n_n.contr.Idx) :
    (dot_S64x28224_S256x28224_S64x256_1_1_0_0_n_n.rhsIdx i q 0).val = (i 1).val := by
  unfold DotDims.rhsIdx
  rw [dif_neg (show ¬(0 : Fin S256x28224.rank) ∈ dot_S64x28224_S256x28224_S64x256_1_1_0_0_n_n.rhsBatch by decide), dif_pos (show (0 : Fin S256x28224.rank) ∈ dot_S64x28224_S256x28224_S64x256_1_1_0_0_n_n.rhsNonContracting by decide)]
  rfl
theorem rhs0_1 (i : S64x256.Idx) (q : dot_S64x28224_S256x28224_S64x256_1_1_0_0_n_n.contr.Idx) :
    (dot_S64x28224_S256x28224_S64x256_1_1_0_0_n_n.rhsIdx i q 1).val = (q ⟨0, by decide⟩).val :=
  dot_S64x28224_S256x28224_S64x256_1_1_0_0_n_n.rhsIdx_val_of_single rfl i q

/-- The first product at row y, column k: the inner product of row y of the left operand with row k of the right. -/
theorem dot0_entry (l : FVec Ideal S64x28224 .bf16) (r : FVec Ideal S256x28224 .bf16) (y : Fin 64) (k : Fin 256) :
    FloatOps.matmul dot_S64x28224_S256x28224_S64x256_1_1_0_0_n_n none l r (constant (F := Ideal) S64x256 .f32 0x00000000#32) (ix2 y k)
      = ∑ d : Fin 28224, l (ix2 y d) * r (ix2 k d) := by
  refine Cert.LibContract.matmul_zero_entry dot_S64x28224_S256x28224_S64x256_1_1_0_0_n_n none 28224 rfl rfl l r (ix2 y k)
    (fun d => ix2 y d) (fun d => ix2 k d) (fun d => ?_) (fun d => ?_)
  · have hk := contrEquiv1_symm_val dot_S64x28224_S256x28224_S64x256_1_1_0_0_n_n 28224 rfl rfl d
    refine funext fun a => Fin.ext ?_
    match a with
    | ⟨0, _⟩ => exact lhs0_0 _ _
    | ⟨1, _⟩ => exact (lhs0_1 _ _).trans hk
  · have hk := contrEquiv1_symm_val dot_S64x28224_S256x28224_S64x256_1_1_0_0_n_n 28224 rfl rfl d
    refine funext fun a => Fin.ext ?_
    match a with
    | ⟨0, _⟩ => exact rhs0_0 _ _
    | ⟨1, _⟩ => exact (rhs0_1 _ _).trans hk

theorem lhs1_0 (i : S256x2048.Idx) (q : dot_S256x256_S2048x256_S256x2048_1_1_0_0_n_n.contr.Idx) :
    (dot_S256x256_S2048x256_S256x2048_1_1_0_0_n_n.lhsIdx i q 0).val = (i 0).val := by
  unfold DotDims.lhsIdx
  rw [dif_neg (show ¬(0 : Fin S256x256.rank) ∈ dot_S256x256_S2048x256_S256x2048_1_1_0_0_n_n.lhsBatch by decide), dif_pos (show (0 : Fin S256x256.rank) ∈ dot_S256x256_S2048x256_S256x2048_1_1_0_0_n_n.lhsNonContracting by decide)]
  rfl
theorem lhs1_1 (i : S256x2048.Idx) (q : dot_S256x256_S2048x256_S256x2048_1_1_0_0_n_n.contr.Idx) :
    (dot_S256x256_S2048x256_S256x2048_1_1_0_0_n_n.lhsIdx i q 1).val = (q ⟨0, by decide⟩).val :=
  dot_S256x256_S2048x256_S256x2048_1_1_0_0_n_n.lhsIdx_val_of_single rfl i q
theorem rhs1_0 (i : S256x2048.Idx) (q : dot_S256x256_S2048x256_S256x2048_1_1_0_0_n_n.contr.Idx) :
    (dot_S256x256_S2048x256_S256x2048_1_1_0_0_n_n.rhsIdx i q 0).val = (i 1).val := by
  unfold DotDims.rhsIdx
  rw [dif_neg (show ¬(0 : Fin S2048x256.rank) ∈ dot_S256x256_S2048x256_S256x2048_1_1_0_0_n_n.rhsBatch by decide), dif_pos (show (0 : Fin S2048x256.rank) ∈ dot_S256x256_S2048x256_S256x2048_1_1_0_0_n_n.rhsNonContracting by decide)]
  rfl
theorem rhs1_1 (i : S256x2048.Idx) (q : dot_S256x256_S2048x256_S256x2048_1_1_0_0_n_n.contr.Idx) :
    (dot_S256x256_S2048x256_S256x2048_1_1_0_0_n_n.rhsIdx i q 1).val = (q ⟨0, by decide⟩).val :=
  dot_S256x256_S2048x256_S256x2048_1_1_0_0_n_n.rhsIdx_val_of_single rfl i q

/-- The second product at row y, column j: the inner product of row y of the left operand with row j of the right. -/
theorem dot1_entry (l : FVec Ideal S256x256 .bf16) (r : FVec Ideal S2048x256 .bf16) (y : Fin 256) (j : Fin 2048) :
    FloatOps.matmul dot_S256x256_S2048x256_S256x2048_1_1_0_0_n_n none l r (constant (F := Ideal) S256x2048 .f32 0x00000000#32) (ix2 y j)
      = ∑ k : Fin 256, l (ix2 y k) * r (ix2 j k) := by
  refine Cert.LibContract.matmul_zero_entry dot_S256x256_S2048x256_S256x2048_1_1_0_0_n_n none 256 rfl rfl l r (ix2 y j)
    (fun k => ix2 y k) (fun k => ix2 j k) (fun k => ?_) (fun k => ?_)
  · have hk := contrEquiv1_symm_val dot_S256x256_S2048x256_S256x2048_1_1_0_0_n_n 256 rfl rfl k
    refine funext fun a => Fin.ext ?_
    match a with
    | ⟨0, _⟩ => exact lhs1_0 _ _
    | ⟨1, _⟩ => exact (lhs1_1 _ _).trans hk
  · have hk := contrEquiv1_symm_val dot_S256x256_S2048x256_S256x2048_1_1_0_0_n_n 256 rfl rfl k
    refine funext fun a => Fin.ext ?_
    match a with
    | ⟨0, _⟩ => exact rhs1_0 _ _
    | ⟨1, _⟩ => exact (rhs1_1 _ _).trans hk

/-! ## The sign body -/

/-- After the product, the sign body is pointwise: at every position it is the selection-form sign of the product's entry. -/
theorem sign_tail (x : FVec Ideal S64x256 .f32) (i : S64x256.Idx) :
    (truncf .bf16 (select (cmpf .ogt (absf x) (broadcast S64x256 (Scalar.ofBits (F := Ideal) .f32 0x00000000#32)))
        (select (cmpf .olt x (constant (F := Ideal) S64x256 .f32 0x00000000#32)) (constant (F := Ideal) S64x256 .f32 0xBF800000#32) (constant (F := Ideal) S64x256 .f32 0x3F800000#32))
        x) bitsLt_bf16_f32 : FVec Ideal S64x256 .bf16) i = Cert.Spec.sgnSel (x i) := rfl

/-- The sign body at row y, column k of its 64×256 block: the selection-form sign of the inner product of row y of the
    observations' block with row k of the directions. -/
theorem pay0_entry (v0 : Vec Ideal S64x28224 .f32) (v3 : Vec Ideal S256x28224 .bf16) (y : Fin 64) (k : Fin 256) :
    Gen.k0_pay1 (F := Ideal) v0 v3 (ix2 y k) = Cert.Spec.sgnSel (∑ d : Fin 28224, v0 (ix2 y d) * v3 (ix2 k d)) := by
  have hm : FloatOps.matmul dot_S64x28224_S256x28224_S64x256_1_1_0_0_n_n none
      (truncf .bf16 (shapeCast S64x28224 v0 shapeCasts_S64x28224_S64x28224) bitsLt_bf16_f32 : FVec Ideal S64x28224 .bf16)
      (shapeCast S256x28224 v3 shapeCasts_S256x28224_S256x28224 : FVec Ideal S256x28224 .bf16)
      (constant (F := Ideal) S64x256 .f32 0x00000000#32) (ix2 y k) = ∑ d : Fin 28224, v0 (ix2 y d) * v3 (ix2 k d) := by
    rw [shapeCast_self, shapeCast_self]
    exact dot0_entry (truncf .bf16 v0 bitsLt_bf16_f32) v3 y k
  unfold Gen.k0_pay1
  exact (sign_tail _ (ix2 y k)).trans (congrArg Cert.Spec.sgnSel hm)

/-! ## The count body -/

/-- The lane sum at row y: the sum of the row's 2048 entries. -/
theorem lane_sum (src : FVec Ideal S256x2048 .f32) (hφ : FKind.Formats .f32)
    (hacc : (0x00000000#32 : BitVec FTy.f32.bits) = FKind.add.neutral .f32 hφ) (y : Fin 256) :
    multiReduction .add [1] S256 src 0x00000000#32 reduces_S256x2048_S256 hφ hacc (ix1 y) = ∑ j : Fin 2048, src (ix2 y j) := by
  refine (Ideal.multiReduction_add_single src 0x00000000#32 reduces_S256x2048_S256 hφ hacc (ix1 y)).trans ?_
  show ∑ j : Fin 2048, src (reduces_S256x2048_S256.lift (ix1 y) j) = _
  refine Finset.sum_congr rfl fun j _ => congrArg src (funext fun a => Fin.ext ?_)
  match a with
  | ⟨0, _⟩ => rfl
  | ⟨1, _⟩ => rfl

/-- The hits of a table of inner products as numbers: the comparison with 255.5, widened to 32 bits and read signed. -/
def hitsVec (d : FVec Ideal S256x2048 .f32) : FVec Ideal S256x2048 .f32 :=
  sitofp .f32 (extui 32 (cmpf .oge d (broadcast S256x2048 (Scalar.ofBits (F := Ideal) .f32 0x437F8000#32))) natLt_1_32)

/-- Each is the value, 0 or 1, of the comparison's bit. -/
theorem hitsVec_apply (d : FVec Ideal S256x2048 .f32) (i : S256x2048.Idx) :
    hitsVec d i = Cert.BitCount.ind (Ideal.cmp .oge (d i) (Ideal.ofBits .f32 0x437F8000#32)) :=
  Cert.BitCount.signed_widen _

/-- After the product, the count body at row y: one times the reciprocal square root of the number of entries of row y of
    the product that reach 255.5, times the weight. -/
theorem count_tail (d : FVec Ideal S256x2048 .f32) (w : FVec Ideal S256x1 .f32) (hφ : FKind.Formats .f32)
    (hacc : (0x00000000#32 : BitVec FTy.f32.bits) = FKind.add.neutral .f32 hφ) (y : Fin 256) (u : Fin 1) :
    (mulf (mulf (broadcast S256x1 (Scalar.ofBits (F := Ideal) .f32 0x3F800000#32))
        (rsqrt (shapeCast S256x1 (multiReduction .add [1] S256 (hitsVec d) 0x00000000#32 reduces_S256x2048_S256 hφ hacc) shapeCasts_S256_S256x1)))
        w : FVec Ideal S256x1 .f32) (ix2 y u)
      = (Ideal.ofBits .f32 0x3F800000#32 * Ideal.rsqrt (∑ j : Fin 2048, Cert.BitCount.ind (Ideal.cmp .oge (d (ix2 y j)) (Ideal.ofBits .f32 0x437F8000#32))))
          * w (ix2 y u) := by
  have h1 : shapeCast S256x1 (multiReduction .add [1] S256 (hitsVec d) 0x00000000#32 reduces_S256x2048_S256 hφ hacc) shapeCasts_S256_S256x1 (ix2 y u)
      = ∑ j : Fin 2048, Cert.BitCount.ind (Ideal.cmp .oge (d (ix2 y j)) (Ideal.ofBits .f32 0x437F8000#32)) :=
    (Cert.LibKeepdims.shapeCast_a_a1_apply _ shapeCasts_S256_S256x1 y u).trans
      ((lane_sum (hitsVec d) hφ hacc y).trans (Finset.sum_congr rfl fun j _ => hitsVec_apply d (ix2 y j)))
  exact congrArg (fun c => (Ideal.ofBits .f32 0x3F800000#32 * Ideal.rsqrt c) * w (ix2 y u)) h1

/-- The count body at row y (unit column u) of its 256×1 block: one times the reciprocal square root of the number of
    sign rows j of the whole table whose inner product with row y of the block reaches 255.5, times the weight. -/
theorem pay1_entry (v0 : Vec Ideal S256x256 .bf16) (v2 : Vec Ideal S2048x256 .bf16) (v14 : Vec Ideal S256x1 .f32) (y : Fin 256) (u : Fin 1) :
    Gen.k1_pay1 (F := Ideal) v0 v2 v14 (ix2 y u)
      = (Ideal.ofBits .f32 0x3F800000#32 * Ideal.rsqrt (∑ j : Fin 2048, Cert.BitCount.ind
            (Ideal.cmp .oge (∑ k : Fin 256, v0 (ix2 y k) * v2 (ix2 j k)) (Ideal.ofBits .f32 0x437F8000#32)))) * v14 (ix2 y u) := by
  have hm : ∀ j : Fin 2048, FloatOps.matmul dot_S256x256_S2048x256_S256x2048_1_1_0_0_n_n none
      (shapeCast S256x256 v0 shapeCasts_S256x256_S256x256 : FVec Ideal S256x256 .bf16)
      (shapeCast S2048x256 v2 shapeCasts_S2048x256_S2048x256 : FVec Ideal S2048x256 .bf16)
      (constant (F := Ideal) S256x2048 .f32 0x00000000#32) (ix2 y j) = ∑ k : Fin 256, v0 (ix2 y k) * v2 (ix2 j k) := fun j => by
    rw [shapeCast_self, shapeCast_self]
    exact dot1_entry v0 v2 y j
  unfold Gen.k1_pay1
  refine (count_tail _ v14 _ _ y u).trans ?_
  exact congrArg (fun c => (Ideal.ofBits .f32 0x3F800000#32 * Ideal.rsqrt c) * v14 (ix2 y u))
    (Finset.sum_congr rfl fun j _ => congrArg (fun x => Cert.BitCount.ind (Ideal.cmp .oge x (Ideal.ofBits .f32 0x437F8000#32))) (hm j))

end Cert.KernelIdeal.Pay

end
-- ==== Proof.KIBlocks.lean ====
/-
  From blocks to arrays, at the exact instance.

  The first call's point t writes rows 64t … 64t+63 of the sign table; each entry (r, k) is the selection-form sign of the
  inner product of observation row r with direction row k, whichever point wrote it, so the table the call leaves is ONE
  function of the two arrays it read. The second call's point t writes rewards 256t … 256t+255; entry r is computed from
  sign row r (its block window), the whole sign table (its other window on the same array) and weight r, so the reward
  array the call leaves is one function of the sign table and the weights. In both calls the blocks tile the array.
-/
import proofs.«162486_j44023414784108_2_alg».proof.Proof.KIBody
import proofs.«162486_j44023414784108_2_alg».proof.Proof.KernelPay
import proofs.«162486_j44023414784108_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The sign table -/

/-- The sign table as a function of the flattened observations and the directions. -/
def signs (v0 : S2048x28224.Idx → EReal) (v1 : S256x28224.Idx → EReal) : S2048x256.Idx → EReal := fun i =>
  Cert.Spec.sgnSel (∑ d : Fin 28224, v0 (ix2 (⟨(i 0).val, (i 0).isLt⟩ : Fin 2048) d) * v1 (ix2 (⟨(i 1).val, (i 1).isLt⟩ : Fin 256) d))

/-- The first call's index maps over its 32 points: the observations' block and the output's block are block t of rows,
    every other block index is zero. -/
theorem idx_facts0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

/-- Every block of rows of the sign table is some point's. -/
theorem idx_onto0 : ∀ q : Fin 32, ∃ t : Fin cfg0.N, win0_2.index t = ![q.val, 0] :=
  (by decide +kernel : ∀ q : Fin 32, ∃ t : Fin grid0.N, win0_2.index t = ![q.val, 0])

/-- Entry (y, k) of point t's block, written over the arrays' entries, is the table's entry at the block's position. -/
theorem block0_entry (v0 : S2048x28224.Idx → EReal) (v1 : S256x28224.Idx → EReal) (t : Fin cfg0.N) (y : Fin 64) (k : Fin 256) :
    Cert.Spec.sgnSel (∑ d : Fin 28224, v0 (((cfg0.win 0).blk t).view.emb (ix2 y d)) * v1 (((cfg0.win 1).blk t).view.emb (ix2 k d)))
      = signs v0 v1 (((cfg0.win 2).blk t).view.emb (ix2 y k)) := by
  obtain ⟨e00, e01, e10, e11, e21⟩ := idx_facts0 t
  unfold signs
  refine congrArg _ (Finset.sum_congr rfl fun d _ => ?_)
  have h0 : ((cfg0.win 0).blk t).view.emb (ix2 y d)
      = ix2 (⟨((((cfg0.win 2).blk t).view.emb (ix2 y k)) 0).val, ((((cfg0.win 2).blk t).view.emb (ix2 y k)) 0).isLt⟩ : Fin 2048) d := by
    funext a; apply Fin.ext
    match a with
    | ⟨0, _⟩ => show win0_0.index t (0 : Fin 2) * 64 + 1 * y.val = win0_2.index t (0 : Fin 2) * 64 + 1 * y.val; omega
    | ⟨1, _⟩ => show win0_0.index t (1 : Fin 2) * 28224 + 1 * d.val = d.val; omega
  have h1 : ((cfg0.win 1).blk t).view.emb (ix2 k d)
      = ix2 (⟨((((cfg0.win 2).blk t).view.emb (ix2 y k)) 1).val, ((((cfg0.win 2).blk t).view.emb (ix2 y k)) 1).isLt⟩ : Fin 256) d := by
    funext a; apply Fin.ext
    match a with
    | ⟨0, _⟩ => show win0_1.index t (0 : Fin 2) * 256 + 1 * k.val = win0_2.index t (1 : Fin 2) * 256 + 1 * k.val; omega
    | ⟨1, _⟩ => show win0_1.index t (1 : Fin 2) * 28224 + 1 * d.val = d.val; omega
  rw [h0, h1]

/-- What point t writes back is block t of the sign table. -/
theorem flushed0_eq (c : Dev nD) (t : Fin cfg0.N) :
    (dat0 V c).flushed 2 t = ((cfg0.win 2).blk t).view.read (Elt Ideal) (signs (V c main_v0) (V c main_v1)) := by
  show (cfg0.win 2).cut (grid0.coords t) ((dat0 V c).after 2 t) = _
  rw [after0_2]
  unfold out0_2
  rw [View.canon_unit_zero hz]
  simp only [View.ld_unit_zero (S := S64x28224) hz, View.ld_unit_zero (S := S256x28224) hz]
  funext j
  obtain ⟨y, k, rfl⟩ : ∃ (y : Fin 64) (k : Fin 256), j = ix2 y k := ⟨j 0, j 1, eq_ix2 j⟩
  refine (Cert.KernelIdeal.Pay.pay0_entry _ _ y k).trans ?_
  have hb := block0_entry (V c main_v0) (V c main_v1) t y k
  generalize hG : signs (V c main_v0) (V c main_v1) = G at hb ⊢
  show _ = G (((cfg0.win 2).blk t).view.emb (ix2 y k))
  exact hb

/-- An index of the sign table is in point t's block iff each coordinate is in the block's range. -/
theorem mem_blk0 (t : Fin cfg0.N) (i : S2048x256.Idx) :
    i ∈ ((cfg0.win 2).blk t).view.set ↔ ∀ a : Fin 2, win0_2.index t a * S64x256.size a ≤ (i a).val ∧ (i a).val < win0_2.index t a * S64x256.size a + S64x256.size a := by
  show i ∈ ((View.whole main_v2).slice (win0_2.rect t)).set ↔ _
  rw [View.set_slice_whole, Rect.mem_set_unit]
  exact Iff.rfl

/-- The blocks cover the table: row r is in the block of point r / 64. -/
theorem cover0 (i : S2048x256.Idx) : ∃ t : Fin cfg0.N, (cfg0.win 2).flush t = true ∧ i ∈ ((cfg0.win 2).blk t).view.set := by
  have hi0 : (i 0).val < 2048 := (i 0).isLt
  have hi1 : (i 1).val < 256 := (i 1).isLt
  obtain ⟨t, ht⟩ := idx_onto0 ⟨(i 0).val / 64, by omega⟩
  have q0 : win0_2.index t (0 : Fin 2) = (i 0).val / 64 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 256 ≤ (i 1).val ∧ (i 1).val < win0_2.index t (1 : Fin 2) * 256 + 256; omega

/-- The sign table after the first call. -/
theorem final0 (c : Dev nD) : (dat0 V c).arrAt 2 cfg0.N = signs (V c main_v0) (V c main_v1) :=
  (dat0 V c).arrAt_eq_of_cover 2 (signs (V c main_v0) (V c main_v1)) (fun t _ => flushed0_eq V c t) cover0

/-! ## The rewards -/

/-- The reward array as a function of the sign table and the weights. -/
def rewards (s : S2048x256.Idx → EReal) (w : S2048x1.Idx → EReal) : S2048x1.Idx → EReal := fun i =>
  Cert.Spec.reward (fun r k => s (ix2 r k)) (fun r => w (ix2 r (0 : Fin 1))) (⟨(i 0).val, (i 0).isLt⟩ : Fin 2048)

/-- The second call's index maps over its 8 points: the sign rows', the weights' and the output's block are block t;
    every other block index is zero. -/
theorem idx_facts1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0 ∧ win1_3.index t (1 : Fin 2) = 0 :=
  (by decide +kernel : ∀ t : Fin grid1.N, _)

theorem idx_onto1 : ∀ q : Fin 8, ∃ t : Fin cfg1.N, win1_3.index t = ![q.val, 0] :=
  (by decide +kernel : ∀ q : Fin 8, ∃ t : Fin grid1.N, win1_3.index t = ![q.val, 0])

/-- Entry (y, u) of point t's block, written over the arrays' entries, is the reward at the block's position. -/
theorem block1_entry (s : S2048x256.Idx → EReal) (w : S2048x1.Idx → EReal) (t : Fin cfg1.N) (y : Fin 256) (u : Fin 1) :
    (Ideal.ofBits .f32 0x3F800000#32 * Ideal.rsqrt (∑ j' : Fin 2048, Cert.BitCount.ind
        (Ideal.cmp .oge (∑ k : Fin 256, s (((cfg1.win 0).blk t).view.emb (ix2 y k)) * s (((cfg1.win 1).blk t).view.emb (ix2 j' k))) (Ideal.ofBits .f32 0x437F8000#32))))
      * w (((cfg1.win 2).blk t).view.emb (ix2 y u))
    = rewards s w (((cfg1.win 3).blk t).view.emb (ix2 y u)) := by
  obtain ⟨e00, e01, e10, e11, e20, e21, e31⟩ := idx_facts1 t
  unfold rewards Cert.Spec.reward Cert.Spec.count Cert.Spec.hit
  have h0 : ∀ k : Fin 256, ((cfg1.win 0).blk t).view.emb (ix2 y k)
      = ix2 (⟨((((cfg1.win 3).blk t).view.emb (ix2 y u)) 0).val, ((((cfg1.win 3).blk t).view.emb (ix2 y u)) 0).isLt⟩ : Fin 2048) k := fun k => by
    funext a; apply Fin.ext
    match a with
    | ⟨0, _⟩ => show win1_0.index t (0 : Fin 2) * 256 + 1 * y.val = win1_3.index t (0 : Fin 2) * 256 + 1 * y.val; omega
    | ⟨1, _⟩ => show win1_0.index t (1 : Fin 2) * 256 + 1 * k.val = k.val; omega
  have h1 : ∀ (j' : Fin 2048) (k : Fin 256), ((cfg1.win 1).blk t).view.emb (ix2 j' k) = ix2 j' k := fun j' k => by
    funext a; apply Fin.ext
    match a with
    | ⟨0, _⟩ => show win1_1.index t (0 : Fin 2) * 2048 + 1 * j'.val = j'.val; omega
    | ⟨1, _⟩ => show win1_1.index t (1 : Fin 2) * 256 + 1 * k.val = k.val; omega
  have h2 : ((cfg1.win 2).blk t).view.emb (ix2 y u)
      = ix2 (⟨((((cfg1.win 3).blk t).view.emb (ix2 y u)) 0).val, ((((cfg1.win 3).blk t).view.emb (ix2 y u)) 0).isLt⟩ : Fin 2048) (0 : Fin 1) := by
    funext a; apply Fin.ext
    match a with
    | ⟨0, _⟩ => show win1_2.index t (0 : Fin 2) * 256 + 1 * y.val = win1_3.index t (0 : Fin 2) * 256 + 1 * y.val; omega
    | ⟨1, _⟩ => show win1_2.index t (1 : Fin 2) * 1 + 1 * u.val = 0; have := u.isLt; omega
  simp only [h0, h1, h2]

/-- What point t writes back is block t of the rewards. -/
theorem flushed1_eq (c : Dev nD) (t : Fin cfg1.N) :
    (dat1 V c).flushed 3 t = ((cfg1.win 3).blk t).view.read (Elt Ideal) (rewards (V c main_v2) (V c main_arg1)) := by
  show (cfg1.win 3).cut (grid1.coords t) ((dat1 V c).after 3 t) = _
  rw [after1_3]
  unfold out1_3
  rw [View.canon_unit_zero hz]
  simp only [View.ld_unit_zero (S := S256x256) hz, View.ld_unit_zero (S := S2048x256) hz, View.ld_unit_zero (S := S256x1) hz]
  funext j
  obtain ⟨y, u, rfl⟩ : ∃ (y : Fin 256) (u : Fin 1), j = ix2 y u := ⟨j 0, j 1, eq_ix2 j⟩
  refine (Cert.KernelIdeal.Pay.pay1_entry _ _ _ y u).trans ?_
  have hb := block1_entry (V c main_v2) (V c main_arg1) t y u
  generalize hG : rewards (V c main_v2) (V c main_arg1) = G at hb ⊢
  show _ = G (((cfg1.win 3).blk t).view.emb (ix2 y u))
  exact hb

theorem mem_blk1 (t : Fin cfg1.N) (i : S2048x1.Idx) :
    i ∈ ((cfg1.win 3).blk t).view.set ↔ ∀ a : Fin 2, win1_3.index t a * S256x1.size a ≤ (i a).val ∧ (i a).val < win1_3.index t a * S256x1.size a + S256x1.size a := by
  show i ∈ ((View.whole main_v3).slice (win1_3.rect t)).set ↔ _
  rw [View.set_slice_whole, Rect.mem_set_unit]
  exact Iff.rfl

theorem cover1 (i : S2048x1.Idx) : ∃ t : Fin cfg1.N, (cfg1.win 3).flush t = true ∧ i ∈ ((cfg1.win 3).blk t).view.set := by
  have hi0 : (i 0).val < 2048 := (i 0).isLt
  have hi1 : (i 1).val < 1 := (i 1).isLt
  obtain ⟨t, ht⟩ := idx_onto1 ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 1 ≤ (i 1).val ∧ (i 1).val < win1_3.index t (1 : Fin 2) * 1 + 1; omega

/-- The reward array after the second call. -/
theorem final1 (c : Dev nD) : (dat1 V c).arrAt 3 cfg1.N = rewards (V c main_v2) (V c main_arg1) :=
  (dat1 V c).arrAt_eq_of_cover 3 (rewards (V c main_v2) (V c main_arg1)) (fun t _ => flushed1_eq V c t) cover1

end Cert.KernelIdeal.Blocks

end
-- ==== Proof.LibExtReal.lean ====
/-
  Small general facts about float values read as extended reals.

  The words of the float one and of plus infinity denote `1` and `⊤`. A quotient by a nonzero REAL divisor is the
  product with one over the divisor, whatever the dividend (infinities included); at a zero divisor the two differ
  (`0 / 0` against `0 · (1 / 0)`), so the hypothesis is needed. A finite sum of reals read in the extended reals is the
  sum of the readings. An extended real whose absolute value `max x (-x)` is below `⊤` is a real. A comparison word
  that is one says its relation holds (less-than; not-equal).
-/
import Idealize.ShloMosaic.PureOps.Ideal.Laws

noncomputable section

namespace Cert.LibExtReal

open Idealize.ShloMosaic

/-- The word of the float one denotes the real one. -/
theorem ofBits_one : Ideal.ofBits .f32 0x3F800000#32 = 1 := by
  simp [Ideal.ofBits, Ideal.ieee, -EReal.coe_mul]; norm_num

/-- The word of plus infinity denotes the top element. -/
theorem ofBits_inf : Ideal.ofBits .f32 0x7F800000#32 = ⊤ := by simp [Ideal.ofBits, Ideal.ieee]

/-- A quotient by a nonzero real is the product with one over it. -/
theorem div_eq_mul_recip (a d : EReal) (y : ℝ) (hy : y ≠ 0) (hd : d = (y : EReal)) :
    Ideal.div a d = a * Ideal.div (Ideal.ofBits .f32 0x3F800000#32) d := by
  subst hd
  rw [Ideal.div_coe hy, Ideal.div_coe hy, ofBits_one, one_mul]

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below the top element is a real. -/
theorem real_of_abs_lt_top (x : EReal) (h : max x (-x) < ⊤) : ∃ y : ℝ, x = (y : EReal) := by
  induction x using EReal.rec with
  | bot => simp at h
  | coe y => exact ⟨y, rfl⟩
  | top => simp at h

/-- A less-than comparison word that is one: the left value is below the right. -/
theorem lt_of_cmp_olt {x y : EReal} (h : Ideal.cmp .olt x y = 1#1) : x < y := by
  unfold Ideal.cmp at h
  by_contra hn
  simp [hn] at h

/-- A not-equal comparison word that is one: the two values differ. -/
theorem ne_of_cmp_une {x y : EReal} (h : Ideal.cmp .une x y = 1#1) : x ≠ y := by
  unfold Ideal.cmp at h
  intro hn
  simp [hn] at h

end Cert.LibExtReal

end
-- ==== Proof.RefSide.lean ====
/-
  The reference side of the value claim.

  At the exact instance every operation of the reference program is an operation on extended reals. Read at row r, its
  result is the specification's reward of the argument arrays: the reshape is the row-major position, the two
  contractions are finite sums, the sign is the selection form of the sign, the comparison against 255.5 is the hit bit,
  the 32-bit sum of the widened bits is their count (no carry leaves the word), and one over the square root of a count
  is the reciprocal square root.
-/
import proofs.«162486_j44023414784108_2_alg».proof.Proof.Spec
import proofs.«162486_j44023414784108_2_alg».proof.Proof.LibExtReal
import proofs.«162486_j44023414784108_2_alg».proof.Proof.Gen.ReferenceIdeal.Read
import Idealize.ShloMosaic.Lib.ValueIdx
import Idealize.ShloMosaic.PureOps.Ideal.Laws
import Idealize.ShloMosaic.PureOps.Reduce

noncomputable section

namespace Cert.RefSide

open Idealize.ShloMosaic Idealize.ShloMosaic.ValueIdx Cert.ReferenceIdeal

/-- The selection form of the sign is the sign function, on every extended real. -/
theorem sgnSel_eq (x : EReal) : Cert.Spec.sgnSel x = Ideal.sign x :=
  Ideal.jnp_sign_eq_sign_f32 x

/-- One over the square root of a count is its reciprocal square root (a count is a natural number, zero included:
    both sides are then the top element). -/
theorem recip_sqrt (n : ℕ) :
    Ideal.div (Ideal.ofBits .f32 0x3F800000#32) (Ideal.sqrt (((n : ℝ)) : EReal)) = Ideal.ofBits .f32 0x3F800000#32 * Ideal.rsqrt (((n : ℝ)) : EReal) := by
  rw [Cert.LibExtReal.ofBits_one, Ideal.sqrt_coe, Ideal.rsqrt_coe]
  have h0 : ¬ ((n : ℝ) < 0) := not_lt.mpr (Nat.cast_nonneg n)
  rw [if_neg h0, if_neg h0]
  by_cases hn : (n : ℝ) = 0
  · rw [if_pos hn, hn, Real.sqrt_zero, EReal.coe_zero, Ideal.div, if_pos rfl, if_pos zero_lt_one, one_mul]
  · rw [if_neg hn]
    have hpos : 0 < Real.sqrt (n : ℝ) := Real.sqrt_pos.mpr (lt_of_le_of_ne (Nat.cast_nonneg n) (Ne.symm hn))
    rw [Ideal.div_coe hpos.ne', one_div]

open Cert.ReferenceIdeal.Read

/-- The reshape reads observation r at the row-major position of d. -/
theorem idx_v0 (r : Fin 2048) (d : Fin 28224) : idx_main_v0 (ix2 r d) = Cert.Spec.unflat r d := by
  funext a
  apply Fin.ext
  have hr : r.val < 2048 := r.isLt
  have hd : d.val < 28224 := d.isLt
  match a with
  | ⟨0, _⟩ => show (r.val * 28224 + d.val) / 28224 = r.val; omega
  | ⟨1, _⟩ => show (r.val * 28224 + d.val) / 7056 % 4 = d.val / 7056; omega
  | ⟨2, _⟩ => show (r.val * 28224 + d.val) / 84 % 84 = d.val / 84 % 84; omega
  | ⟨3, _⟩ => show (r.val * 28224 + d.val) % 84 = d.val % 84; omega

variable (x0 : (⟨S2048x4x84x84, .f32⟩ : BufTy).Contents (Elt Ideal)) (x1 : (⟨S2048x1, .f32⟩ : BufTy).Contents (Elt Ideal))
  (x2 : (⟨S256x28224, .f32⟩ : BufTy).Contents (Elt Ideal))

/-- The first contraction at (r, c) is the projection of observation r on direction c. -/
theorem v2_entry (r : Fin 2048) (c : Fin 256) :
    val_main_v2 (F := Ideal) x0 x2 (ix2 r c)
      = Cert.Spec.proj (fun r d => x0 (Cert.Spec.unflat r d)) (fun k d => x2 (ix2 k d)) r c := by
  rw [val_main_v2_apply]
  unfold Cert.Spec.proj
  refine Finset.sum_congr rfl fun k _ => ?_
  have el : lidx_main_v2 (ix2 r c) k = ix2 r k := funext fun a => by
    match a with
    | ⟨0, _⟩ => rfl
    | ⟨1, _⟩ => rfl
  have er : idx_main_v1 (ridx_main_v2 (ix2 r c) k) = ix2 c k := funext fun a => by
    match a with
    | ⟨0, _⟩ => rfl
    | ⟨1, _⟩ => rfl
  rw [val_main_v0_apply, val_main_v1_apply, el, er, idx_v0]

/-- The sign of a projection, in its selection form: the sign rows. -/
theorem v3_entry (r : Fin 2048) (c : Fin 256) :
    val_main_v3 (F := Ideal) x0 x2 (ix2 r c)
      = Cert.Spec.sgnSel (Cert.Spec.proj (fun r d => x0 (Cert.Spec.unflat r d)) (fun k d => x2 (ix2 k d)) r c) := by
  rw [val_main_v3_apply, Ideal.hostUnary_sign_def, v2_entry, ← sgnSel_eq]

/-- The second contraction at (r, j) is the inner product of the sign rows of r and j. -/
theorem v5_entry (r j : Fin 2048) :
    val_main_v5 (F := Ideal) x0 x2 (ix2 r j)
      = ∑ k : Fin 256,
          Cert.Spec.sgnSel (Cert.Spec.proj (fun r d => x0 (Cert.Spec.unflat r d)) (fun k d => x2 (ix2 k d)) r k)
            * Cert.Spec.sgnSel (Cert.Spec.proj (fun r d => x0 (Cert.Spec.unflat r d)) (fun k d => x2 (ix2 k d)) j k) := by
  rw [val_main_v5_apply]
  refine Finset.sum_congr rfl fun k _ => ?_
  have el : lidx_main_v5 (ix2 r j) k = ix2 r k := funext fun a => by
    match a with
    | ⟨0, _⟩ => rfl
    | ⟨1, _⟩ => rfl
  have er : idx_main_v4 (ridx_main_v5 (ix2 r j) k) = ix2 j k := funext fun a => by
    match a with
    | ⟨0, _⟩ => rfl
    | ⟨1, _⟩ => rfl
  rw [val_main_v4_apply, el, er, v3_entry, v3_entry]

/-- The comparison against 255.5 at (r, j) is the hit bit of r and j. -/
theorem v7_entry (r j : Fin 2048) :
    val_main_v7 (F := Ideal) x0 x2 (ix2 r j)
      = Cert.Spec.hit (fun r k => Cert.Spec.sgnSel (Cert.Spec.proj (fun r d => x0 (Cert.Spec.unflat r d)) (fun k d => x2 (ix2 k d)) r k)) r j := by
  rw [val_main_v7_apply, v5_entry, val_main_v6_apply, val_main_cst_apply]
  rfl

/-- The row sum's shape fact, in the form that names the inserted coordinate. -/
theorem reduces_d1 : S2048x2048.Reduces [1] S2048 := by decide

/-- The index over row r with column j inserted is (r, j). -/
theorem lift_d1 (r j : Fin 2048) : reduces_d1.lift (ix1 r) j = ix2 r j := by
  funext a
  apply Fin.ext
  match a with
  | ⟨0, _⟩ => rfl
  | ⟨1, _⟩ => rfl

/-- The integer row sum at r is the fold of 32-bit addition over the widened hit bits of row r. -/
theorem v9_entry (r : Fin 2048) :
    val_main_v9 (F := Ideal) x0 x2 (ix1 r)
      = (Finset.univ : Finset (Fin 2048)).fold IntOp.addi 0#32 (fun j =>
          (Cert.Spec.hit (fun r k => Cert.Spec.sgnSel (Cert.Spec.proj (fun r d => x0 (Cert.Spec.unflat r d)) (fun k d => x2 (ix2 k d)) r k)) r j).setWidth 32) := by
  unfold val_main_v9
  rw [Host.reduce_eq_fold_single IntOp.addi _ _ Gen.reducesTo_S2048x2048_S2048_d1 reduces_d1 Gen.h_S_ (ix1 r)]
  have hf : (val_main_v8 (F := Ideal) x0 x2 ∘ reduces_d1.lift (ix1 r))
      = fun j : Fin 2048 => (Cert.Spec.hit (fun r k => Cert.Spec.sgnSel (Cert.Spec.proj (fun r d => x0 (Cert.Spec.unflat r d)) (fun k d => x2 (ix2 k d)) r k)) r j).setWidth 32 := by
    refine funext fun (j : Fin 2048) => ?_
    refine (congrArg (val_main_v8 (F := Ideal) x0 x2) (lift_d1 r j)).trans ?_
    rw [val_main_v8_apply, v7_entry]
  rw [hf]
  rfl

/-- The row sum converted to a float is the count of row r. -/
theorem v10_entry (r : Fin 2048) :
    val_main_v10 (F := Ideal) x0 x2 (ix1 r) = Cert.Spec.count (fun r k => Cert.Spec.sgnSel (Cert.Spec.proj (fun r d => x0 (Cert.Spec.unflat r d)) (fun k d => x2 (ix2 k d)) r k)) r := by
  rw [val_main_v10_apply, v9_entry]
  exact Cert.BitCount.signed_fold_widen (fun j => Cert.Spec.hit (fun r k => Cert.Spec.sgnSel (Cert.Spec.proj (fun r d => x0 (Cert.Spec.unflat r d)) (fun k d => x2 (ix2 k d)) r k)) r j) Finset.univ
    (by rw [Finset.card_univ, Fintype.card_fin]; norm_num)

/-- A count is a natural number. -/
theorem count_nat (s : Fin 2048 → Fin 256 → EReal) (r : Fin 2048) : ∃ n : ℕ, Cert.Spec.count s r = ((n : ℝ) : EReal) :=
  ⟨∑ j : Fin 2048, (Cert.Spec.hit s r j).toNat, (Cert.BitCount.cast_sum_toNat (fun j => Cert.Spec.hit s r j) Finset.univ).symm⟩

/-- One over the square root of the count of row r, as the reciprocal square root. -/
theorem v13_entry (r : Fin 2048) :
    val_main_v13 (F := Ideal) x0 x2 (ix1 r)
      = Ideal.ofBits .f32 0x3F800000#32 * Ideal.rsqrt (Cert.Spec.count (fun r k => Cert.Spec.sgnSel (Cert.Spec.proj (fun r d => x0 (Cert.Spec.unflat r d)) (fun k d => x2 (ix2 k d)) r k)) r) := by
  rw [val_main_v13_apply, Ideal.hostDivf_def, val_main_v12_apply, val_main_cst_0_apply, val_main_v11_apply,
    Ideal.hostUnary_sqrt_def, v10_entry]
  obtain ⟨n, hn⟩ := count_nat (fun r k => Cert.Spec.sgnSel (Cert.Spec.proj (fun r d => x0 (Cert.Spec.unflat r d)) (fun k d => x2 (ix2 k d)) r k)) r
  rw [hn]
  exact recip_sqrt n

/-- The reference's result at row r (unit column u) is the specification's reward of the argument arrays. -/
theorem ref_entry (x0 : (⟨S2048x4x84x84, .f32⟩ : BufTy).Contents (Elt Ideal)) (x1 : (⟨S2048x1, .f32⟩ : BufTy).Contents (Elt Ideal))
    (x2 : (⟨S256x28224, .f32⟩ : BufTy).Contents (Elt Ideal)) (r : Fin 2048) (u : Fin 1) :
    Cert.ReferenceIdeal.Read.val_main_v15 (F := Ideal) x0 x1 x2 (ix2 r u)
      = Cert.Spec.reward
          (fun r k => Cert.Spec.sgnSel (Cert.Spec.proj (fun r d => x0 (Cert.Spec.unflat r d)) (fun k d => x2 (ix2 k d)) r k))
          (fun r => x1 (ix2 r (0 : Fin 1))) r := by
  have hu : u = 0 := Subsingleton.elim u 0
  subst hu
  have ei : idx_main_v14 (ix2 r (0 : Fin 1)) = ix1 r := funext fun a => by
    match a with
    | ⟨0, _⟩ => rfl
  rw [val_main_v15_apply, Ideal.mulf_def, val_main_v14_apply, ei, v13_entry]
  rfl

end Cert.RefSide

end
-- ==== Proof.KIValue.lean ====
/-
  The value claim.

  At the exact instance the program's reward array ends as `rewards (signs X' A') w`: X' the observations reshaped to
  [2048, 28224], A' the directions (a change of float format is the identity), w the weights. The reference computes,
  row by row, the specification's reward of the same arrays (the reference-side module): the sign of a projection is its
  selection form, the integer count of hits read as a real is the sum of the hits' values, and one over the square root of a
  count is its reciprocal square root. So the two results are one function of the arguments, entry by entry.
-/
import proofs.«162486_j44023414784108_2_alg».proof.Proof.KIRun
import proofs.«162486_j44023414784108_2_alg».proof.Proof.KRun
import proofs.«162486_j44023414784108_2_alg».proof.Proof.KIBlocks
import proofs.«162486_j44023414784108_2_alg».proof.Proof.RefSide
import proofs.«162486_j44023414784108_2_alg».proof.Proof.Gen.ReferenceIdeal.Read
import proofs.«162486_j44023414784108_2_alg».proof.Proof.Gen.Pre_finite_inputs
import proofs.«162486_j44023414784108_2_alg».proof.Defs
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Hand Cert.KernelIdeal.Blocks
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The sign table's entry (r, k) over literal coordinates. -/
theorem signs_entry (v0 : S2048x28224.Idx → EReal) (v1 : S256x28224.Idx → EReal) (r : Fin 2048) (k : Fin 256) :
    signs v0 v1 (ix2 r k) = Cert.Spec.sgnSel (∑ d : Fin 28224, v0 (ix2 r d) * v1 (ix2 k d)) := rfl

/-- The reward's entry (r, u) over literal coordinates. -/
theorem rewards_entry (s : S2048x256.Idx → EReal) (w : S2048x1.Idx → EReal) (r : Fin 2048) (u : Fin 1) :
    rewards s w (ix2 r u) = Cert.Spec.reward (fun r k => s (ix2 r k)) (fun r => w (ix2 r (0 : Fin 1))) r := rfl

/-- Entry (r, d) of the reshaped observations is the observations' entry at the four-axis position of d. -/
theorem flat_entry (x0 : S2048x4x84x84.Idx → EReal) (r : Fin 2048) (d : Fin 28224) :
    shapeCast S2048x28224 x0 shapeCasts_S2048x4x84x84_S2048x28224 (ix2 r d) = x0 (Cert.Spec.unflat r d) :=
  shapeCast_apply x0 shapeCasts_S2048x4x84x84_S2048x28224 (ix2 r d) (Cert.Spec.unflat r d) (by
    rewrite [Shape.rowMajor_val_four, Shape.rowMajor_val_two]
    have h0 : r.val < 2048 := r.isLt
    have h1 : d.val < 28224 := d.isLt
    show ((r.val * 4 + d.val / 7056) * 84 + d.val / 84 % 84) * 84 + d.val % 84 = r.val * 28224 + d.val
    omega)

/-- What the first call finds in the two arrays the host steps wrote. -/
theorem v0_eq (c : Dev nD) : (Hand.V1 m ρ c main_v0 : S2048x28224.Idx → EReal)
    = shapeCast S2048x28224 (m ((c : Thread nD τ).loc main_arg0)) shapeCasts_S2048x4x84x84_S2048x28224 := by
  dsimp only [Hand.V1, W1, W0, hostOps0]; after_results; rfl
theorem v1_eq (c : Dev nD) : (Hand.V1 m ρ c main_v1 : S256x28224.Idx → EReal)
    = (truncf .bf16 (m ((c : Thread nD τ).loc main_arg2) : FVec Ideal S256x28224 .f32) bitsLt_bf16_f32 : FVec Ideal S256x28224 .bf16) := by
  dsimp only [Hand.V1, W1, W0, hostOps0]; after_results

/-- The reward array at the end of the run. -/
def result (c : Dev nD) : S2048x1.Idx → EReal :=
  rewards (signs (shapeCast S2048x28224 (m ((c : Thread nD τ).loc main_arg0)) shapeCasts_S2048x4x84x84_S2048x28224)
      ((truncf .bf16 (m ((c : Thread nD τ).loc main_arg2) : FVec Ideal S256x28224 .f32) bitsLt_bf16_f32 : FVec Ideal S256x28224 .bf16))) (m ((c : Thread nD τ).loc main_arg1))

theorem result_eq (c : Dev nD) : W3 m ρ c (Proc.devRef .tc main_v3) = result m c := by
  have hs : Hand.V2 m ρ c main_v2 = signs (Hand.V1 m ρ c main_v0) (Hand.V1 m ρ c main_v1) := (W2_arr m ρ c 2).trans (final0 (Hand.V1 m ρ) c)
  have hw : Hand.V2 m ρ c main_arg1 = m ((c : Thread nD τ).loc main_arg1) :=
    (W2_of_ne m ρ c main_arg1 (by decide)).trans ((W1_of m ρ c main_arg1 (by decide)).trans rfl)
  rw [W3_v3]; unfold res3
  rw [final1 (Hand.V2 m ρ) c, hs, hw, v0_eq, v1_eq]
  rfl

/-- The program's run with the reward array named. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v3 (by decide))).trans (result_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

/-- The reference's result is the same function of the arguments, entry by entry. -/
theorem reference_eq (x0 : S2048x4x84x84.Idx → EReal) (x1 : S2048x1.Idx → EReal) (x2 : S256x28224.Idx → EReal) :
    Cert.ReferenceIdeal.Read.val_main_v15 (F := Ideal) x0 x1 x2
      = rewards (signs (shapeCast S2048x28224 x0 shapeCasts_S2048x4x84x84_S2048x28224) (truncf .bf16 (x2 : FVec Ideal S256x28224 .f32) bitsLt_bf16_f32 : FVec Ideal S256x28224 .bf16)) x1 := by
  funext i
  obtain ⟨r, u, rfl⟩ : ∃ (r : Fin 2048) (u : Fin 1), i = ix2 r u := ⟨i 0, i 1, eq_ix2 i⟩
  refine (Cert.RefSide.ref_entry x0 x1 x2 r u).trans ?_
  rw [rewards_entry]
  have hs : (fun (r : Fin 2048) (k : Fin 256) => Cert.Spec.sgnSel (Cert.Spec.proj (fun r d => x0 (Cert.Spec.unflat r d)) (fun k d => x2 (ix2 k d)) r k))
      = fun r k => signs (shapeCast S2048x28224 x0 shapeCasts_S2048x4x84x84_S2048x28224) (truncf .bf16 (x2 : FVec Ideal S256x28224 .f32) bitsLt_bf16_f32 : FVec Ideal S256x28224 .bf16) (ix2 r k) := by
    funext r k
    rw [signs_entry]
    unfold Cert.Spec.proj
    refine congrArg _ (Finset.sum_congr rfl fun d _ => ?_)
    rw [flat_entry]
    rfl
  rw [hs]

end Cert.KernelIdeal.Result

namespace Cert.Proof.Claims

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the word "one with x's sign bit" read as a float is -1 below zero and 1 otherwise. -/
theorem preserves : Cert.preserves_Kernel_KernelIdeal := IdealRules.sign_bit.statement Cert.KernelIdeal.S64x256 .f32

/-- Both programs, run from memories agreeing on the arguments, end with the same reward array. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2]
  exact Cert.KernelIdeal.Result.reference_eq _ _ _

end Cert.Proof.Claims

end
-- ==== Proof.lean ====
/-
  The certificate of one kernel against its reference: a count-based exploration reward.

  Both programs project 2048 flattened observations on 256 directions, keep the signs, count for every observation the
  observations whose 256 signs all agree with its own (the inner product of two sign rows reaches 255.5 exactly then), and
  return the weight of the observation over the square root of its count. The kernel does it in two calls (signs; counts and
  rewards), tile by tile, with the sign as a selection and the count as a sum of zeros and ones in floating point, and takes
  a reciprocal square root; the reference uses the sign function, adds the hits as 32-bit integers and divides one by the
  square root. Over the extended reals these are one function of the arguments.

  The three frames: the kernel's two programs by the run of their two calls (modules KRun, KIRun: the second call reads the
  sign table through two windows, each holding half of it), the reference's by its run with the result dropped. The
  idealization's one rewrite is the sign-bit rule. The value claim is module KIValue.
-/
import proofs.«162486_j44023414784108_2_alg».proof.Defs
import proofs.«162486_j44023414784108_2_alg».proof.Proof.Gen.Kernel
import proofs.«162486_j44023414784108_2_alg».proof.Proof.Gen.KernelIdeal
import proofs.«162486_j44023414784108_2_alg».proof.Proof.Gen.ReferenceIdeal
import proofs.«162486_j44023414784108_2_alg».proof.Proof.Gen.Pre_finite_inputs
import proofs.«162486_j44023414784108_2_alg».proof.Proof.KRun
import proofs.«162486_j44023414784108_2_alg».proof.Proof.KIValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
